-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S3x128x256x256 : Shape := ⟨4, ![3, 128, 256, 256]⟩
abbrev S256x256x3 : Shape := ⟨3, ![256, 256, 3]⟩
abbrev S_ : Shape := ⟨0, ![]⟩

class Facts : Prop where
  bcast_S_S3x128x256x256 : S_.BroadcastsInDim S3x128x256x256 (![] : Fin 0 → Fin S3x128x256x256.rank)
  reducesTo_S3x128x256x256_S_d0_1_2_3 : S3x128x256x256.ReducesTo [0, 1, 2, 3] S_
  h_S_ : 0 < S_.numel
  bcast_S_S256x256x3 : S_.BroadcastsInDim S256x256x3 (![] : Fin 0 → Fin S256x256x3.rank)
  reducesTo_S256x256x3_S_d0_1_2 : S256x256x3.ReducesTo [0, 1, 2] S_

variable [Facts]

def fn {F : FTy → Type} [FloatOps F] (main_arg0 : FVec F S3x128x256x256 .f32) (main_arg1 : FVec F S256x256x3 .f32) : IVec S_ 1 :=
  let main_v0 : FVec F S3x128x256x256 .f32 := Host.absf main_arg0
  let main_cst : FVec F S_ .f32 := constant S_ .f32 0x7F800000#32
  let main_v1 : FVec F S3x128x256x256 .f32 := broadcastInDim S3x128x256x256 ![] bcast_S_S3x128x256x256 main_cst
  let main_v2 : IVec S3x128x256x256 1 := cmpf .olt main_v0 main_v1
  let main_c : IVec S_ 1 := constantI S_ 1 1#1
  let main_v3 : IVec S_ 1 := (fun x v => Host.reduce IntOp.andi x v reducesTo_S3x128x256x256_S_d0_1_2_3 h_S_) main_v2 main_c
  let main_v4 : FVec F S256x256x3 .f32 := Host.absf main_arg1
  let main_cst_0 : FVec F S_ .f32 := constant S_ .f32 0x7F800000#32
  let main_v5 : FVec F S256x256x3 .f32 := broadcastInDim S256x256x3 ![] bcast_S_S256x256x3 main_cst_0
  let main_v6 : IVec S256x256x3 1 := cmpf .olt main_v4 main_v5
  let main_c_1 : IVec S_ 1 := constantI S_ 1 1#1
  let main_v7 : IVec S_ 1 := (fun x v => Host.reduce IntOp.andi x v reducesTo_S256x256x3_S_d0_1_2 h_S_) main_v6 main_c_1
  let main_v8 : IVec S_ 1 := andi main_v3 main_v7
  main_v8
-- ==== Kernel.lean ====
abbrev S3x128x256x256 : Shape := ⟨4, ![3, 128, 256, 256]⟩
abbrev S256x256x3 : Shape := ⟨3, ![256, 256, 3]⟩
abbrev S3x256x256 : Shape := ⟨3, ![3, 256, 256]⟩
abbrev S3x8x256x256 : Shape := ⟨4, ![3, 8, 256, 256]⟩
abbrev S3x1x256x256 : Shape := ⟨4, ![3, 1, 256, 256]⟩
abbrev S1x8x256x256 : Shape := ⟨4, ![1, 8, 256, 256]⟩
abbrev S8x256x256 : Shape := ⟨3, ![8, 256, 256]⟩
abbrev S8x1x256 : Shape := ⟨3, ![8, 1, 256]⟩
abbrev S8x257x256 : Shape := ⟨3, ![8, 257, 256]⟩
abbrev S8x258x256 : Shape := ⟨3, ![8, 258, 256]⟩
abbrev S8x258x1 : Shape := ⟨3, ![8, 258, 1]⟩
abbrev S8x258x257 : Shape := ⟨3, ![8, 258, 257]⟩
abbrev S8x258x258 : Shape := ⟨3, ![8, 258, 258]⟩

abbrev nBuf : Space → Nat
  | .hbm => 4
  | .vmem => 5
  | .smem => 0
  | _ => 0

abbrev bufTy : (tb : Table) → Fin (tcTables nBuf tb) → BufTy
  | .hbm, ⟨0, _⟩ => ⟨S3x128x256x256, .f32⟩
  | .hbm, ⟨1, _⟩ => ⟨S256x256x3, .f32⟩
  | .hbm, ⟨2, _⟩ => ⟨S3x256x256, .f32⟩
  | .hbm, ⟨3, _⟩ => ⟨S3x128x256x256, .f32⟩
  | .local _ .vmem, ⟨0, _⟩ => ⟨S3x8x256x256, .f32⟩
  | .local _ .vmem, ⟨1, _⟩ => ⟨S3x8x256x256, .f32⟩
  | .local _ .vmem, ⟨2, _⟩ => ⟨S3x256x256, .f32⟩
  | .local _ .vmem, ⟨3, _⟩ => ⟨S3x8x256x256, .f32⟩
  | .local _ .vmem, ⟨4, _⟩ => ⟨S3x8x256x256, .f32⟩
  | _, _ => ⟨S3x128x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S3x8x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S3x8x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  transposes_S256x256x3_S3x256x256_2_0_1 : S256x256x3.Transposes [2, 0, 1] S3x256x256
  inb_S3x8x256x256_S3x8x256x256_0_0_0_0 : ∀ a, (![0, 0, 0, 0] : Fin 4 → Nat) a + S3x8x256x256.size a ≤ S3x8x256x256.size a
  h_S3x8x256x256 : 0 < S3x8x256x256.numel
  inb_S3x256x256_S3x256x256_0_0_0 : ∀ a, (![0, 0, 0] : Fin 3 → Nat) a + S3x256x256.size a ≤ S3x256x256.size a
  h_S3x256x256 : 0 < S3x256x256.numel
  shapeCasts_S3x256x256_S3x256x256 : S3x256x256.ShapeCasts S3x256x256
  shapeCasts_S3x256x256_S3x1x256x256 : S3x256x256.ShapeCasts S3x1x256x256
  broadcasts_S3x1x256x256_S3x8x256x256 : S3x1x256x256.Broadcasts S3x8x256x256
  slices_S3x8x256x256_o0_0_0_0_S1x8x256x256 : S3x8x256x256.Slices ![0, 0, 0, 0] S1x8x256x256
  shapeCasts_S1x8x256x256_S8x256x256 : S1x8x256x256.ShapeCasts S8x256x256
  slices_S3x8x256x256_o1_0_0_0_S1x8x256x256 : S3x8x256x256.Slices ![1, 0, 0, 0] S1x8x256x256
  slices_S3x8x256x256_o2_0_0_0_S1x8x256x256 : S3x8x256x256.Slices ![2, 0, 0, 0] S1x8x256x256
  natLt_1_32 : 1 < 32
  concatenates_S8x1x256_S8x256x256_S8x257x256_d1 : Shape.Concatenates [S8x1x256, S8x256x256] S8x257x256 1
  concatenates_S8x257x256_S8x1x256_S8x258x256_d1 : Shape.Concatenates [S8x257x256, S8x1x256] S8x258x256 1
  concatenates_S8x258x1_S8x258x256_S8x258x257_d2 : Shape.Concatenates [S8x258x1, S8x258x256] S8x258x257 2
  concatenates_S8x258x257_S8x258x1_S8x258x258_d2 : Shape.Concatenates [S8x258x257, S8x258x1] S8x258x258 2
  slices_S8x258x258_o0_1_1_S8x256x256 : S8x258x258.Slices ![0, 1, 1] S8x256x256
  slices_S8x258x258_o0_0_1_S8x256x256 : S8x258x258.Slices ![0, 0, 1] S8x256x256
  slices_S8x258x258_o0_2_1_S8x256x256 : S8x258x258.Slices ![0, 2, 1] S8x256x256
  slices_S8x258x258_o0_1_0_S8x256x256 : S8x258x258.Slices ![0, 1, 0] S8x256x256
  slices_S8x258x258_o0_1_2_S8x256x256 : S8x258x258.Slices ![0, 1, 2] S8x256x256
  shapeCasts_S8x256x256_S1x8x256x256 : S8x256x256.ShapeCasts S1x8x256x256
  broadcasts_S1x8x256x256_S3x8x256x256 : S1x8x256x256.Broadcasts S3x8x256x256
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3x8x256x256.size a ≤ S3x128x256x256.size a
  hwx0_0 : ∀ i : grid0.Coords, EltTy.bits .f32 = 32 ∨ (Rect.block (s := S3x128x256x256) S3x8x256x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x256x256.size a ≤ S3x256x256.size a
  hwx0_1 : ∀ i : grid0.Coords, EltTy.bits .f32 = 32 ∨ (Rect.block (s := S3x256x256) S3x256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3x8x256x256.size a ≤ S3x128x256x256.size a
  hwx0_2 : ∀ i : grid0.Coords, EltTy.bits .f32 = 32 ∨ (Rect.block (s := S3x128x256x256) S3x8x256x256.size (cc0_transform_2 i) (hinb0_2 i)).WholeWords (EltTy.packing .f32)

variable [Facts₀]

abbrev win0_0 : Pipeline.Window sig grid0 :=
  Pipeline.Window.ofSpec (Memref.whole main_arg0) S3x8x256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S3x256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S3x8x256x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S3x128x256x256 : Shape := ⟨4, ![3, 128, 256, 256]⟩
abbrev S256x256x3 : Shape := ⟨3, ![256, 256, 3]⟩
abbrev S128x256x256x3 : Shape := ⟨4, ![128, 256, 256, 3]⟩
abbrev S1x256x256x3 : Shape := ⟨4, ![1, 256, 256, 3]⟩
abbrev S_ : Shape := ⟨0, ![]⟩
abbrev S128x256x256 : Shape := ⟨3, ![128, 256, 256]⟩
abbrev S128x258x258 : Shape := ⟨3, ![128, 258, 258]⟩
abbrev S128x256x256x1 : Shape := ⟨4, ![128, 256, 256, 1]⟩

abbrev nBuf : Space → Nat
  | .hbm => 92
  | .vmem => 0
  | .smem => 0
  | _ => 0

abbrev bufTy : (tb : Table) → Fin (tcTables nBuf tb) → BufTy
  | .hbm, ⟨0, _⟩ => ⟨S3x128x256x256, .f32⟩
  | .hbm, ⟨1, _⟩ => ⟨S256x256x3, .f32⟩
  | .hbm, ⟨2, _⟩ => ⟨S128x256x256x3, .f32⟩
  | .hbm, ⟨3, _⟩ => ⟨S1x256x256x3, .f32⟩
  | .hbm, ⟨4, _⟩ => ⟨S128x256x256x3, .f32⟩
  | .hbm, ⟨5, _⟩ => ⟨S128x256x256x3, .f32⟩
  | .hbm, ⟨6, _⟩ => ⟨S128x256x256x3, .f32⟩
  | .hbm, ⟨7, _⟩ => ⟨S_, .f32⟩
  | .hbm, ⟨8, _⟩ => ⟨S128x256x256, .f32⟩
  | .hbm, ⟨9, _⟩ => ⟨S_, .f32⟩
  | .hbm, ⟨10, _⟩ => ⟨S128x256x256, .f32⟩
  | .hbm, ⟨11, _⟩ => ⟨S128x256x256, .i1⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i1⟩
  | .hbm, ⟨16, _⟩ => ⟨S_, .i1⟩
  | .hbm, ⟨17, _⟩ => ⟨S128x258x258, .i1⟩
  | .hbm, ⟨18, _⟩ => ⟨S128x256x256, .i1⟩
  | .hbm, ⟨19, _⟩ => ⟨S128x256x256, .i1⟩
  | .hbm, ⟨20, _⟩ => ⟨S128x256x256, .i1⟩
  | .hbm, ⟨21, _⟩ => ⟨S128x256x256, .i1⟩
  | .hbm, ⟨22, _⟩ => ⟨S128x256x256, .i1⟩
  | .hbm, ⟨23, _⟩ => ⟨S128x256x256, .i1⟩
  | .hbm, ⟨24, _⟩ => ⟨S128x256x256, .i1⟩
  | .hbm, ⟨25, _⟩ => ⟨S128x256x256, .i1⟩
  | .hbm, ⟨26, _⟩ => ⟨S128x256x256, .i1⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i1⟩
  | .hbm, ⟨31, _⟩ => ⟨S_, .i1⟩
  | .hbm, ⟨32, _⟩ => ⟨S128x258x258, .i1⟩
  | .hbm, ⟨33, _⟩ => ⟨S128x256x256, .i1⟩
  | .hbm, ⟨34, _⟩ => ⟨S128x256x256, .i1⟩
  | .hbm, ⟨35, _⟩ => ⟨S128x256x256, .i1⟩
  | .hbm, ⟨36, _⟩ => ⟨S128x256x256, .i1⟩
  | .hbm, ⟨37, _⟩ => ⟨S128x256x256, .i1⟩
  | .hbm, ⟨38, _⟩ => ⟨S128x256x256, .i1⟩
  | .hbm, ⟨39, _⟩ => ⟨S128x256x256, .i1⟩
  | .hbm, ⟨40, _⟩ => ⟨S128x256x256, .i1⟩
  | .hbm, ⟨41, _⟩ => ⟨S128x256x256, .i1⟩
  | .hbm, ⟨42, _⟩ => ⟨S_, .i32⟩
  | .hbm, ⟨43, _⟩ => ⟨S_, .i32⟩
  | .hbm, ⟨44, _⟩ => ⟨S_, .i32⟩
  | .hbm, ⟨45, _⟩ => ⟨S_, .i1⟩
  | .hbm, ⟨46, _⟩ => ⟨S_, .i1⟩
  | .hbm, ⟨47, _⟩ => ⟨S128x258x258, .i1⟩
  | .hbm, ⟨48, _⟩ => ⟨S128x256x256, .i1⟩
  | .hbm, ⟨49, _⟩ => ⟨S128x256x256, .i1⟩
  | .hbm, ⟨50, _⟩ => ⟨S128x256x256, .i1⟩
  | .hbm, ⟨51, _⟩ => ⟨S128x256x256, .i1⟩
  | .hbm, ⟨52, _⟩ => ⟨S128x256x256, .i1⟩
  | .hbm, ⟨53, _⟩ => ⟨S128x256x256, .i1⟩
  | .hbm, ⟨54, _⟩ => ⟨S128x256x256, .i1⟩
  | .hbm, ⟨55, _⟩ => ⟨S128x256x256, .i1⟩
  | .hbm, ⟨56, _⟩ => ⟨S128x256x256, .i1⟩
  | .hbm, ⟨57, _⟩ => ⟨S_, .i32⟩
  | .hbm, ⟨58, _⟩ => ⟨S_, .i32⟩
  | .hbm, ⟨59, _⟩ => ⟨S_, .i32⟩
  | .hbm, ⟨60, _⟩ => ⟨S_, .i1⟩
  | .hbm, ⟨61, _⟩ => ⟨S_, .i1⟩
  | .hbm, ⟨62, _⟩ => ⟨S128x258x258, .i1⟩
  | .hbm, ⟨63, _⟩ => ⟨S128x256x256, .i1⟩
  | .hbm, ⟨64, _⟩ => ⟨S128x256x256, .i1⟩
  | .hbm, ⟨65, _⟩ => ⟨S128x256x256, .i1⟩
  | .hbm, ⟨66, _⟩ => ⟨S128x256x256, .i1⟩
  | .hbm, ⟨67, _⟩ => ⟨S128x256x256, .i1⟩
  | .hbm, ⟨68, _⟩ => ⟨S128x256x256, .i1⟩
  | .hbm, ⟨69, _⟩ => ⟨S128x256x256, .i1⟩
  | .hbm, ⟨70, _⟩ => ⟨S128x256x256, .i1⟩
  | .hbm, ⟨71, _⟩ => ⟨S128x256x256, .i1⟩
  | .hbm, ⟨72, _⟩ => ⟨S_, .i32⟩
  | .hbm, ⟨73, _⟩ => ⟨S_, .i32⟩
  | .hbm, ⟨74, _⟩ => ⟨S_, .i32⟩
  | .hbm, ⟨75, _⟩ => ⟨S_, .i1⟩
  | .hbm, ⟨76, _⟩ => ⟨S_, .i1⟩
  | .hbm, ⟨77, _⟩ => ⟨S128x258x258, .i1⟩
  | .hbm, ⟨78, _⟩ => ⟨S128x256x256, .i1⟩
  | .hbm, ⟨79, _⟩ => ⟨S128x256x256, .i1⟩
  | .hbm, ⟨80, _⟩ => ⟨S128x256x256, .i1⟩
  | .hbm, ⟨81, _⟩ => ⟨S128x256x256, .i1⟩
  | .hbm, ⟨82, _⟩ => ⟨S128x256x256, .i1⟩
  | .hbm, ⟨83, _⟩ => ⟨S128x256x256, .i1⟩
  | .hbm, ⟨84, _⟩ => ⟨S128x256x256, .i1⟩
  | .hbm, ⟨85, _⟩ => ⟨S128x256x256, .i1⟩
  | .hbm, ⟨86, _⟩ => ⟨S128x256x256, .i1⟩
  | .hbm, ⟨87, _⟩ => ⟨S128x256x256x1, .i1⟩
  | .hbm, ⟨88, _⟩ => ⟨S128x256x256x1, .f32⟩
  | .hbm, ⟨89, _⟩ => ⟨S128x256x256x3, .f32⟩
  | .hbm, ⟨90, _⟩ => ⟨S128x256x256x3, .f32⟩
  | .hbm, ⟨91, _⟩ => ⟨S3x128x256x256, .f32⟩
  | _, _ => ⟨S3x128x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_c : Ref sig .tc := ⟨.hbm, 12, rfl⟩
abbrev main_call0_c : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_c_1 : Ref sig .tc := ⟨.hbm, 27, rfl⟩
abbrev main_call1_c : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c_2 : Ref sig .tc := ⟨.hbm, 42, rfl⟩
abbrev main_call2_c : Ref sig .tc := ⟨.hbm, 43, rfl⟩
abbrev main_call2_v0 : Ref sig .tc := ⟨.hbm, 44, rfl⟩
abbrev main_call2_v1 : Ref sig .tc := ⟨.hbm, 45, rfl⟩
abbrev main_call2_v2 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_c_3 : Ref sig .tc := ⟨.hbm, 57, rfl⟩
abbrev main_call3_c : Ref sig .tc := ⟨.hbm, 58, rfl⟩
abbrev main_call3_v0 : Ref sig .tc := ⟨.hbm, 59, rfl⟩
abbrev main_call3_v1 : Ref sig .tc := ⟨.hbm, 60, rfl⟩
abbrev main_call3_v2 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_c_4 : Ref sig .tc := ⟨.hbm, 72, rfl⟩
abbrev main_call4_c : Ref sig .tc := ⟨.hbm, 73, rfl⟩
abbrev main_call4_v0 : Ref sig .tc := ⟨.hbm, 74, rfl⟩
abbrev main_call4_v1 : Ref sig .tc := ⟨.hbm, 75, rfl⟩
abbrev main_call4_v2 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩

abbrev nD : Nat := 1
abbrev τ : Topo := Topo.v7x

variable {F : FTy → Type} [FloatOps F]

class Facts₀ : Prop where
  transposes_S3x128x256x256_S128x256x256x3_1_2_3_0 : S3x128x256x256.Transposes [1, 2, 3, 0] S128x256x256x3
  bcast_S256x256x3_S1x256x256x3_1_2_3 : S256x256x3.BroadcastsInDim S1x256x256x3 (![1, 2, 3] : Fin 3 → Fin S1x256x256x3.rank)
  bcast_S1x256x256x3_S128x256x256x3_0_1_2_3 : S1x256x256x3.BroadcastsInDim S128x256x256x3 (![0, 1, 2, 3] : Fin 4 → Fin S128x256x256x3.rank)
  reducesTo_S128x256x256x3_S128x256x256_d3 : S128x256x256x3.ReducesTo [3] S128x256x256
  h_S_ : 0 < S_.numel
  bcast_S_S128x256x256 : S_.BroadcastsInDim S128x256x256 (![] : Fin 0 → Fin S128x256x256.rank)
  bcast_S_S_ : S_.BroadcastsInDim S_ (![] : Fin 0 → Fin S_.rank)
  pads_S128x256x256_S128x258x258_000_110_110 : S128x256x256.Pads (![0, 1, 1] : Fin 3 → Nat) ![0, 1, 1] ![0, 0, 0] S128x258x258
  slices_S128x258x258_S128x256x256_0_1_1 : S128x258x258.Slices ![0, 1, 1] S128x256x256
  slices_S128x258x258_S128x256x256_0_0_1 : S128x258x258.Slices ![0, 0, 1] S128x256x256
  slices_S128x258x258_S128x256x256_0_2_1 : S128x258x258.Slices ![0, 2, 1] S128x256x256
  slices_S128x258x258_S128x256x256_0_1_0 : S128x258x258.Slices ![0, 1, 0] S128x256x256
  slices_S128x258x258_S128x256x256_0_1_2 : S128x258x258.Slices ![0, 1, 2] S128x256x256
  bcast_S128x256x256_S128x256x256x1_0_1_2 : S128x256x256.BroadcastsInDim S128x256x256x1 (![0, 1, 2] : Fin 3 → Fin S128x256x256x1.rank)
  bcast_S128x256x256x1_S128x256x256x3_0_1_2_3 : S128x256x256x1.BroadcastsInDim S128x256x256x3 (![0, 1, 2, 3] : Fin 4 → Fin S128x256x256x3.rank)
  transposes_S128x256x256x3_S3x128x256x256_3_0_1_2 : S128x256x256x3.Transposes [3, 0, 1, 2] S3x128x256x256

variable [Facts₀]

class Facts : Prop extends Facts₀ where

variable [Facts]
-- ==== Proof.Cross.lean ====
/-
  Binary dilation of a 256 × 256 frame by the 4-connected cross, with zeros outside the frame, on words of any width.

  A frame is a function `f : ℕ → ℕ → BitVec n` of a row and a column; only its values at rows and columns below 256 matter.
  `ring f` is the frame with one ring of zeros around it (a 258 × 258 frame whose position `(h, w)` holds `f (h-1) (w-1)`),
  and one dilation step ORs five windows of the ringed frame: the centre, the row above, the row below, the column to the
  left and the column to the right. OR on words whose only possibly set bit is the lowest is Boolean OR, and widening a
  word by zero bits commutes with OR, so the step on 32-bit words that hold 0 or 1 is the step on single bits, widened.
-/
import Mathlib.Logic.Function.Iterate
import Mathlib.Data.BitVec

namespace Cert.Cross

/-- Position `(h, w)` of the frame with a ring of zeros around it: `f (h-1) (w-1)` inside, zero on the ring. -/
def ring {n : Nat} (f : Nat → Nat → BitVec n) (h w : Nat) : BitVec n :=
  if 1 ≤ h ∧ h ≤ 256 ∧ 1 ≤ w ∧ w ≤ 256 then f (h - 1) (w - 1) else 0

/-- One dilation step at `(h, w)`: the entry, the one above, the one below, the one to the left, the one to the right,
    ORed in this order (entries outside the frame read as zero). -/
def cross {n : Nat} (f : Nat → Nat → BitVec n) (h w : Nat) : BitVec n :=
  ring f (h + 1) (w + 1) ||| ring f h (w + 1) ||| ring f (h + 2) (w + 1) ||| ring f (h + 1) w ||| ring f (h + 1) (w + 2)

/-- The ringed frame reads the frame only inside it. -/
theorem ring_congr {n : Nat} {f g : Nat → Nat → BitVec n} (hfg : ∀ h w, h < 256 → w < 256 → f h w = g h w) (h w : Nat) :
    ring f h w = ring g h w := by
  unfold ring
  split
  · next hc => exact hfg _ _ (by omega) (by omega)
  · rfl

/-- A step reads the frame only inside it. -/
theorem cross_congr {n : Nat} {f g : Nat → Nat → BitVec n} (hfg : ∀ h w, h < 256 → w < 256 → f h w = g h w) (h w : Nat) :
    cross f h w = cross g h w := by
  unfold cross
  rw [ring_congr hfg, ring_congr hfg, ring_congr hfg, ring_congr hfg, ring_congr hfg]

/-- So do any number of steps. -/
theorem iterate_congr {n : Nat} {f g : Nat → Nat → BitVec n} (hfg : ∀ h w, h < 256 → w < 256 → f h w = g h w) (k : Nat)
    (h w : Nat) (hh : h < 256) (hw : w < 256) : (cross^[k] f) h w = (cross^[k] g) h w := by
  induction k generalizing h w with
  | zero => exact hfg h w hh hw
  | succ k ih =>
    rw [Function.iterate_succ_apply', Function.iterate_succ_apply']
    exact cross_congr (fun h' w' hh' hw' => ih h' w' hh' hw') h w

/-- Widening every entry by zero bits commutes with the ring of zeros. -/
theorem ring_setWidth {n : Nat} (k : Nat) (f : Nat → Nat → BitVec n) (h w : Nat) :
    ring (fun h w => (f h w).setWidth k) h w = (ring f h w).setWidth k := by
  unfold ring
  split
  · rfl
  · simp

/-- Widening every entry by zero bits commutes with a step. -/
theorem cross_setWidth {n : Nat} (k : Nat) (f : Nat → Nat → BitVec n) :
    cross (fun h w => (f h w).setWidth k) = fun h w => (cross f h w).setWidth k := by
  funext h w
  unfold cross
  simp only [ring_setWidth, BitVec.setWidth_or]

/-- And with any number of steps. -/
theorem iterate_setWidth {n : Nat} (k : Nat) (f : Nat → Nat → BitVec n) (j : Nat) :
    cross^[j] (fun h w => (f h w).setWidth k) = fun h w => ((cross^[j] f) h w).setWidth k := by
  induction j with
  | zero => rfl
  | succ j ih => rw [Function.iterate_succ_apply', ih, cross_setWidth, Function.iterate_succ_apply']

end Cert.Cross
-- ==== Proof.Frames.lean ====
/-
  The frames of a stack of 256 × 256 masks: `frame v a` is member `a` of a stack `v` of shape [A, 256, 256] as a function of
  a row and a column (zero where the row or the column is outside the frame), the form the dilation of Proof/Cross.lean
  is stated on. A mask of single bits widened to words has the widened frames, and a tile of consecutive members of a
  larger stack has the larger stack's frames.
-/
import proofs.«173328_j8873402434071_2_alg».proof.Proof.Cross
import Idealize.ShloMosaic.Lib.ValueIdx
import Idealize.ShloMosaic.PureOps

namespace Cert.Cross

open Idealize.ShloMosaic Idealize.ShloMosaic.ValueIdx

/-- Member `a` of the stack, as a frame. -/
def frame {A n : Nat} (v : (⟨3, ![A, 256, 256]⟩ : Shape).Idx → BitVec n) (a : Fin A) (h w : Nat) : BitVec n :=
  if hh : h < 256 ∧ w < 256 then v (ix3 a ⟨h, hh.1⟩ ⟨w, hh.2⟩) else 0

/-- Inside the frame it is the stack's entry. -/
theorem frame_apply {A n : Nat} (v : (⟨3, ![A, 256, 256]⟩ : Shape).Idx → BitVec n) (a : Fin A) (h w : Nat)
    (hh : h < 256) (hw : w < 256) : frame v a h w = v (ix3 a ⟨h, hh⟩ ⟨w, hw⟩) := by
  unfold frame
  rw [dif_pos ⟨hh, hw⟩]

/-- The frames of a stack of bits widened to `k`-bit words are the bits' frames, widened. -/
theorem frame_extui {A k : Nat} (u : IVec (⟨3, ![A, 256, 256]⟩ : Shape) 1) (hk : 1 < k) (a : Fin A) :
    frame (extui k u hk) a = fun h w => (frame u a h w).setWidth k := by
  funext h w
  unfold frame
  split
  · rfl
  · simp

/-- Two stacks that agree on a member, entry by entry, have the same frame there. -/
theorem frame_congr {A B n : Nat} (v : (⟨3, ![A, 256, 256]⟩ : Shape).Idx → BitVec n)
    (u : (⟨3, ![B, 256, 256]⟩ : Shape).Idx → BitVec n) (a : Fin A) (b : Fin B)
    (hvu : ∀ (h w : Fin 256), v (ix3 a h w) = u (ix3 b h w)) : frame v a = frame u b := by
  funext h w
  unfold frame
  split
  · next hh => exact hvu ⟨h, hh.1⟩ ⟨w, hh.2⟩
  · rfl

end Cert.Cross
-- ==== Proof.KernelStep.lean ====
/-
  One dilation step as the kernel computes it, on a tile of 8 frames held as 32-bit words: the tile is padded with one
  row of zeros above and below and one column of zeros left and right (four concatenations), and five 8 × 256 × 256
  windows of the padded tile are ORed: offsets (1,1) — the entry itself —, (0,1) the row above, (2,1) the row below,
  (1,0) the column to the left, (1,2) the column to the right. Read at an entry this is `Cross.cross` of the entry's frame.
-/
import proofs.«173328_j8873402434071_2_alg».proof.KernelIdeal
import proofs.«173328_j8873402434071_2_alg».proof.Proof.Frames
import Idealize.ShloMosaic.Lib.Pipeline.Value

noncomputable section

namespace Cert.KernelIdeal.Dil

open Cert.KernelIdeal Cert.Cross Idealize.ShloMosaic Idealize.ShloMosaic.ValueIdx
open Cert.KernelIdeal.Facts₀ Cert.KernelIdeal.Facts

variable [Facts]

/-- The tile with a ring of zeros around every frame. -/
def padRing (v : IVec S8x256x256 32) : IVec S8x258x258 32 :=
  concatenate S8x258x258 2
    [⟨S8x258x257, concatenate S8x258x257 2
      [⟨S8x258x1, broadcast S8x258x1 0#32⟩,
       ⟨S8x258x256, concatenate S8x258x256 1
          [⟨S8x257x256, concatenate S8x257x256 1 [⟨S8x1x256, broadcast S8x1x256 0#32⟩, ⟨S8x256x256, v⟩]
              concatenates_S8x1x256_S8x256x256_S8x257x256_d1⟩,
           ⟨S8x1x256, broadcast S8x1x256 0#32⟩] concatenates_S8x257x256_S8x1x256_S8x258x256_d1⟩]
      concatenates_S8x258x1_S8x258x256_S8x258x257_d2⟩,
     ⟨S8x258x1, broadcast S8x258x1 0#32⟩] concatenates_S8x258x257_S8x258x1_S8x258x258_d2

/-- The five windows of a padded tile, ORed in the kernel's order. -/
def orWindows (p : IVec S8x258x258 32) : IVec S8x256x256 32 :=
  ori (ori (ori (ori (extractStridedSlice S8x256x256 ![0, 1, 1] p slices_S8x258x258_o0_1_1_S8x256x256)
    (extractStridedSlice S8x256x256 ![0, 0, 1] p slices_S8x258x258_o0_0_1_S8x256x256))
    (extractStridedSlice S8x256x256 ![0, 2, 1] p slices_S8x258x258_o0_2_1_S8x256x256))
    (extractStridedSlice S8x256x256 ![0, 1, 0] p slices_S8x258x258_o0_1_0_S8x256x256))
    (extractStridedSlice S8x256x256 ![0, 1, 2] p slices_S8x258x258_o0_1_2_S8x256x256)

/-- One dilation step on the tile. -/
def kstep (v : IVec S8x256x256 32) : IVec S8x256x256 32 := orWindows (padRing v)

section Layers
variable {α : Type} (z : α)

/-- A row of `z` in front of the rows: row 0 is `z`, row `H ≥ 1` is the tile's row `H - 1`. -/
theorem rowsFront (v : S8x256x256.Idx → α) (h : Shape.Concatenates [S8x1x256, S8x256x256] S8x257x256 1)
    (a : Fin 8) (H : Fin 257) (W : Fin 256) :
    concatenate S8x257x256 1 [⟨S8x1x256, broadcast S8x1x256 z⟩, ⟨S8x256x256, v⟩] h (ix3 a H W)
      = if hH : 1 ≤ H.val then v (ix3 a ⟨H.val - 1, by omega⟩ W) else z := by
  by_cases hH : 1 ≤ H.val
  · rw [dif_pos hH]
    exact concatenate_pair_apply_right _ _ v h (ix3 a H W) rfl rfl (ix3 a ⟨H.val - 1, by omega⟩ W)
      (fun b hb => match b, hb with
        | ⟨0, _⟩, _ => rfl
        | ⟨1, _⟩, hb => (hb rfl).elim
        | ⟨2, _⟩, _ => rfl)
      (by show (H.val - 1) + 1 = H.val; omega)
  · rw [dif_neg hH]
    exact concatenate_pair_apply_left _ (broadcast S8x1x256 z) v h (ix3 a H W) rfl (ix3 a ⟨0, by omega⟩ W)
      (fun b => match b with
        | ⟨0, _⟩ => rfl
        | ⟨1, _⟩ => by show 0 = H.val; omega
        | ⟨2, _⟩ => rfl)

/-- A row of `z` behind the rows: row 257 is `z`, row `H < 257` is the operand's. -/
theorem rowsBack (v : S8x257x256.Idx → α) (h : Shape.Concatenates [S8x257x256, S8x1x256] S8x258x256 1)
    (a : Fin 8) (H : Fin 258) (W : Fin 256) :
    concatenate S8x258x256 1 [⟨S8x257x256, v⟩, ⟨S8x1x256, broadcast S8x1x256 z⟩] h (ix3 a H W)
      = if hH : H.val < 257 then v (ix3 a ⟨H.val, hH⟩ W) else z := by
  by_cases hH : H.val < 257
  · rw [dif_pos hH]
    exact concatenate_pair_apply_left _ v _ h (ix3 a H W) rfl (ix3 a ⟨H.val, hH⟩ W)
      (fun b => match b with
        | ⟨0, _⟩ => rfl
        | ⟨1, _⟩ => rfl
        | ⟨2, _⟩ => rfl)
  · rw [dif_neg hH]
    exact concatenate_pair_apply_right _ v (broadcast S8x1x256 z) h (ix3 a H W) rfl rfl (ix3 a ⟨0, by omega⟩ W)
      (fun b hb => match b, hb with
        | ⟨0, _⟩, _ => rfl
        | ⟨1, _⟩, hb => (hb rfl).elim
        | ⟨2, _⟩, _ => rfl)
      (by show 0 + 257 = H.val; omega)

/-- A column of `z` in front of the columns. -/
theorem colsFront (v : S8x258x256.Idx → α) (h : Shape.Concatenates [S8x258x1, S8x258x256] S8x258x257 2)
    (a : Fin 8) (H : Fin 258) (W : Fin 257) :
    concatenate S8x258x257 2 [⟨S8x258x1, broadcast S8x258x1 z⟩, ⟨S8x258x256, v⟩] h (ix3 a H W)
      = if hW : 1 ≤ W.val then v (ix3 a H ⟨W.val - 1, by omega⟩) else z := by
  by_cases hW : 1 ≤ W.val
  · rw [dif_pos hW]
    exact concatenate_pair_apply_right _ _ v h (ix3 a H W) rfl rfl (ix3 a H ⟨W.val - 1, by omega⟩)
      (fun b hb => match b, hb with
        | ⟨0, _⟩, _ => rfl
        | ⟨1, _⟩, _ => rfl
        | ⟨2, _⟩, hb => (hb rfl).elim)
      (by show (W.val - 1) + 1 = W.val; omega)
  · rw [dif_neg hW]
    exact concatenate_pair_apply_left _ (broadcast S8x258x1 z) v h (ix3 a H W) rfl (ix3 a H ⟨0, by omega⟩)
      (fun b => match b with
        | ⟨0, _⟩ => rfl
        | ⟨1, _⟩ => rfl
        | ⟨2, _⟩ => by show 0 = W.val; omega)

/-- A column of `z` behind the columns. -/
theorem colsBack (v : S8x258x257.Idx → α) (h : Shape.Concatenates [S8x258x257, S8x258x1] S8x258x258 2)
    (a : Fin 8) (H : Fin 258) (W : Fin 258) :
    concatenate S8x258x258 2 [⟨S8x258x257, v⟩, ⟨S8x258x1, broadcast S8x258x1 z⟩] h (ix3 a H W)
      = if hW : W.val < 257 then v (ix3 a H ⟨W.val, hW⟩) else z := by
  by_cases hW : W.val < 257
  · rw [dif_pos hW]
    exact concatenate_pair_apply_left _ v _ h (ix3 a H W) rfl (ix3 a H ⟨W.val, hW⟩)
      (fun b => match b with
        | ⟨0, _⟩ => rfl
        | ⟨1, _⟩ => rfl
        | ⟨2, _⟩ => rfl)
  · rw [dif_neg hW]
    exact concatenate_pair_apply_right _ v (broadcast S8x258x1 z) h (ix3 a H W) rfl rfl (ix3 a H ⟨0, by omega⟩)
      (fun b hb => match b, hb with
        | ⟨0, _⟩, _ => rfl
        | ⟨1, _⟩, _ => rfl
        | ⟨2, _⟩, hb => (hb rfl).elim)
      (by show 0 + 257 = W.val; omega)

end Layers

/-- The padded tile at `(a, H, W)` is the ringed frame of member `a` at `(H, W)`. -/
theorem padRing_apply (v : IVec S8x256x256 32) (a : Fin 8) (H W : Fin 258) :
    padRing v (ix3 a H W) = ring (frame v a) H.val W.val := by
  unfold padRing ring
  rw [colsBack]
  by_cases h4 : W.val < 257
  · rw [dif_pos h4, colsFront]
    by_cases h3 : 1 ≤ W.val
    · rw [dif_pos h3, rowsBack]
      by_cases h2 : H.val < 257
      · rw [dif_pos h2, rowsFront]
        by_cases h1 : 1 ≤ H.val
        · have hc : 1 ≤ H.val ∧ H.val ≤ 256 ∧ 1 ≤ W.val ∧ W.val ≤ 256 := ⟨h1, by omega, h3, by omega⟩
          rw [dif_pos h1, if_pos hc, frame_apply v a (H.val - 1) (W.val - 1) (by omega) (by omega)]
        · have hc : ¬(1 ≤ H.val ∧ H.val ≤ 256 ∧ 1 ≤ W.val ∧ W.val ≤ 256) := by omega
          rw [dif_neg h1, if_neg hc]; rfl
      · have hc : ¬(1 ≤ H.val ∧ H.val ≤ 256 ∧ 1 ≤ W.val ∧ W.val ≤ 256) := by omega
        rw [dif_neg h2, if_neg hc]; rfl
    · have hc : ¬(1 ≤ H.val ∧ H.val ≤ 256 ∧ 1 ≤ W.val ∧ W.val ≤ 256) := by omega
      rw [dif_neg h3, if_neg hc]; rfl
  · have hc : ¬(1 ≤ H.val ∧ H.val ≤ 256 ∧ 1 ≤ W.val ∧ W.val ≤ 256) := by omega
    rw [dif_neg h4, if_neg hc]; rfl

/-- A window of the padded tile at offsets `(o₁, o₂)`, read at an entry. -/
theorem window_apply {α : Type} (o₁ o₂ : Nat) (p : S8x258x258.Idx → α) (hs : S8x258x258.Slices ![0, o₁, o₂] S8x256x256)
    (a : Fin 8) (h w : Fin 256) (h₁ : h.val + o₁ < 258) (h₂ : w.val + o₂ < 258) :
    extractStridedSlice S8x256x256 ![0, o₁, o₂] p hs (ix3 a h w) = p (ix3 a ⟨h.val + o₁, h₁⟩ ⟨w.val + o₂, h₂⟩) :=
  extractStridedSlice_apply _ p hs (ix3 a h w) (ix3 a ⟨h.val + o₁, h₁⟩ ⟨w.val + o₂, h₂⟩) (fun b => match b with
    | ⟨0, _⟩ => by show a.val = 0 + a.val; omega
    | ⟨1, _⟩ => by show h.val + o₁ = o₁ + h.val; omega
    | ⟨2, _⟩ => by show w.val + o₂ = o₂ + w.val; omega)

/-- ONE STEP, READ AT AN ENTRY: the dilation of the entry's frame. -/
theorem kstep_apply (v : IVec S8x256x256 32) (a : Fin 8) (h w : Fin 256) :
    kstep v (ix3 a h w) = cross (frame v a) h.val w.val := by
  have hh := h.isLt
  have hw := w.isLt
  show (((extractStridedSlice S8x256x256 ![0, 1, 1] (padRing v) slices_S8x258x258_o0_1_1_S8x256x256 (ix3 a h w)
    ||| extractStridedSlice S8x256x256 ![0, 0, 1] (padRing v) slices_S8x258x258_o0_0_1_S8x256x256 (ix3 a h w))
    ||| extractStridedSlice S8x256x256 ![0, 2, 1] (padRing v) slices_S8x258x258_o0_2_1_S8x256x256 (ix3 a h w))
    ||| extractStridedSlice S8x256x256 ![0, 1, 0] (padRing v) slices_S8x258x258_o0_1_0_S8x256x256 (ix3 a h w))
    ||| extractStridedSlice S8x256x256 ![0, 1, 2] (padRing v) slices_S8x258x258_o0_1_2_S8x256x256 (ix3 a h w) = _
  rw [window_apply 1 1 _ _ a h w (by omega) (by omega), window_apply 0 1 _ _ a h w (by omega) (by omega),
    window_apply 2 1 _ _ a h w (by omega) (by omega), window_apply 1 0 _ _ a h w (by omega) (by omega),
    window_apply 1 2 _ _ a h w (by omega) (by omega)]
  simp only [padRing_apply]
  rfl

/-- The frame of the stepped tile, inside the frame, is the dilation of the tile's frame. -/
theorem frame_kstep (v : IVec S8x256x256 32) (a : Fin 8) (h w : Nat) (hh : h < 256) (hw : w < 256) :
    frame (kstep v) a h w = cross (frame v a) h w := by
  rw [frame_apply (kstep v) a h w hh hw]
  exact kstep_apply v a ⟨h, hh⟩ ⟨w, hw⟩

/-- ANY NUMBER OF STEPS, READ AT AN ENTRY: that many dilations of the entry's frame. -/
theorem iterate_kstep (k : Nat) (v : IVec S8x256x256 32) (a : Fin 8) (h w : Fin 256) :
    (kstep^[k] v) (ix3 a h w) = (cross^[k] (frame v a)) h.val w.val := by
  induction k generalizing v with
  | zero => exact (frame_apply v a h.val w.val h.isLt w.isLt).symm
  | succ k ih =>
    rw [Function.iterate_succ_apply, ih (kstep v), Function.iterate_succ_apply]
    exact iterate_congr (fun h' w' hh hw => frame_kstep v a h' w' hh hw) k h.val w.val h.isLt w.isLt

end Cert.KernelIdeal.Dil

end
-- ==== Proof.KernelValue.lean ====
/-
  What the kernel's body stores, read at an entry of the block. With `x` the block of X (3 channels × 8 frames × 256 × 256)
  and `b` the background (3 × 256 × 256), the body computes d = |x − b| (b broadcast over the 8 frames), thresholds
  d₀ + d₁ + d₂ > 1/2 into a bit per entry of the tile of 8 frames, widens the bits to 32-bit words, dilates five times
  (Proof/KernelStep.lean), converts the words to floats and multiplies every channel of x by them. At the ideal values
  a word that holds a widened bit converts, signed, to the float the bit converts to unsigned: 0 or 1.
-/
import proofs.«173328_j8873402434071_2_alg».proof.Proof.Gen.KernelIdeal.Skeleton
import proofs.«173328_j8873402434071_2_alg».proof.Proof.KernelStep
import Idealize.ShloMosaic.Lib.Pipeline.Value
import Idealize.ShloMosaic.Lib.KernelVsHost
import Idealize.ShloMosaic.PureOps.Ideal

noncomputable section

namespace Cert.KernelIdeal.Dil

open Cert.KernelIdeal Cert.Cross Idealize.ShloMosaic Idealize.ShloMosaic.ValueIdx
open Cert.KernelIdeal.Facts₀ Cert.KernelIdeal.Facts

variable {F : FTy → Type} [FloatOps F] [Facts]

/-- |x − b|, the background broadcast over the frames. -/
def absDiff (x0 : Vec F S3x8x256x256 .f32) (x1 : Vec F S3x256x256 .f32) : FVec F S3x8x256x256 .f32 :=
  absf (subf x0 (broadcastTo S3x8x256x256 (shapeCast S3x1x256x256 (shapeCast S3x256x256 x1 shapeCasts_S3x256x256_S3x256x256)
    shapeCasts_S3x256x256_S3x1x256x256) broadcasts_S3x1x256x256_S3x8x256x256))

/-- The thresholded mask of the tile, one bit per entry. -/
def thrK (x0 : Vec F S3x8x256x256 .f32) (x1 : Vec F S3x256x256 .f32) : IVec S8x256x256 1 :=
  cmpf .ogt (addf (addf
      (shapeCast S8x256x256 (extractStridedSlice S1x8x256x256 ![0, 0, 0, 0] (absDiff x0 x1) slices_S3x8x256x256_o0_0_0_0_S1x8x256x256) shapeCasts_S1x8x256x256_S8x256x256)
      (shapeCast S8x256x256 (extractStridedSlice S1x8x256x256 ![1, 0, 0, 0] (absDiff x0 x1) slices_S3x8x256x256_o1_0_0_0_S1x8x256x256) shapeCasts_S1x8x256x256_S8x256x256))
      (shapeCast S8x256x256 (extractStridedSlice S1x8x256x256 ![2, 0, 0, 0] (absDiff x0 x1) slices_S3x8x256x256_o2_0_0_0_S1x8x256x256) shapeCasts_S1x8x256x256_S8x256x256))
    (broadcast S8x256x256 (Scalar.ofBits .f32 0x3F000000#32))

/-- The stored value: x times the five times dilated mask as a float, on every channel. -/
def payload (x0 : Vec F S3x8x256x256 .f32) (x1 : Vec F S3x256x256 .f32) : FVec F S3x8x256x256 .f32 :=
  mulf x0 (broadcastTo S3x8x256x256 (sitofp .f32 (shapeCast S1x8x256x256 (kstep^[5] (extui 32 (thrK x0 x1) natLt_1_32))
    shapeCasts_S8x256x256_S1x8x256x256)) broadcasts_S1x8x256x256_S3x8x256x256)

/-- The padded mask after the first step, as the body's first payload states it. -/
theorem pay2_eq (x0 : Vec F S3x8x256x256 .f32) (x1 : Vec F S3x256x256 .f32) :
    Gen.k0_pay2 x0 x1 = padRing (kstep (extui 32 (thrK x0 x1) natLt_1_32)) := rfl

/-- The body's stored payload is `payload`. -/
theorem pay_eq (x0 : Vec F S3x8x256x256 .f32) (x1 : Vec F S3x256x256 .f32) :
    Gen.k0_pay1 x0 (Gen.k0_pay5 (F := F) (Gen.k0_pay2 x0 x1) (Gen.k0_pay3 x0 x1) (Gen.k0_pay4 x0 x1)) = payload x0 x1 := by
  unfold Gen.k0_pay3 Gen.k0_pay4
  rw [pay2_eq]
  rfl

/-- |x − b| at channel `k`, frame `a`, row `h`, column `w`. -/
theorem absDiff_apply (x0 : Vec F S3x8x256x256 .f32) (x1 : Vec F S3x256x256 .f32) (k : Fin 3) (a : Fin 8) (h w : Fin 256) :
    absDiff x0 x1 (ix4 k a h w) = FloatOps.absf (FloatOps.subf (x0 (ix4 k a h w)) (x1 (ix3 k h w))) := by
  show FloatOps.absf (FloatOps.subf (x0 (ix4 k a h w)) (broadcastTo S3x8x256x256 (shapeCast S3x1x256x256 (shapeCast S3x256x256 x1 shapeCasts_S3x256x256_S3x256x256)
    shapeCasts_S3x256x256_S3x1x256x256) broadcasts_S3x1x256x256_S3x8x256x256 (ix4 k a h w))) = _
  rw [broadcastTo_apply _ broadcasts_S3x1x256x256_S3x8x256x256 (ix4 k a h w) (ix4 k ⟨0, Nat.one_pos⟩ h w) (fun b => match b with
      | ⟨0, _⟩ => by show k.val = if (3 : Nat) = 1 then 0 else k.val; rw [if_neg (by decide)]
      | ⟨1, _⟩ => by show 0 = if (1 : Nat) = 1 then 0 else a.val; rw [if_pos rfl]
      | ⟨2, _⟩ => by show h.val = if (256 : Nat) = 1 then 0 else h.val; rw [if_neg (by decide)]
      | ⟨3, _⟩ => by show w.val = if (256 : Nat) = 1 then 0 else w.val; rw [if_neg (by decide)]),
    shapeCast_apply _ shapeCasts_S3x256x256_S3x1x256x256 (ix4 k ⟨0, Nat.one_pos⟩ h w) (ix3 k h w) (by
      rw [Shape.rowMajor_val_three, Shape.rowMajor_val_four]
      show (k.val * 256 + h.val) * 256 + w.val = ((k.val * 1 + 0) * 256 + h.val) * 256 + w.val
      omega),
    shapeCast_self]

/-- Channel `o` of a 3 × 8 × 256 × 256 value cut out and viewed as the 8 × 256 × 256 tile. -/
theorem chan_apply (o : Nat) (ho : o < 3) (d : FVec F S3x8x256x256 .f32) (hs : S3x8x256x256.Slices ![o, 0, 0, 0] S1x8x256x256)
    (a : Fin 8) (h w : Fin 256) :
    shapeCast S8x256x256 (extractStridedSlice S1x8x256x256 ![o, 0, 0, 0] d hs) shapeCasts_S1x8x256x256_S8x256x256 (ix3 a h w)
      = d (ix4 ⟨o, ho⟩ a h w) := by
  rw [shapeCast_apply _ shapeCasts_S1x8x256x256_S8x256x256 (ix3 a h w) (ix4 ⟨0, Nat.one_pos⟩ a h w) (by
      rw [Shape.rowMajor_val_three, Shape.rowMajor_val_four]
      show ((0 * 8 + a.val) * 256 + h.val) * 256 + w.val = (a.val * 256 + h.val) * 256 + w.val
      omega)]
  exact extractStridedSlice_apply _ d hs (ix4 ⟨0, Nat.one_pos⟩ a h w) (ix4 ⟨o, ho⟩ a h w) (fun b => match b with
    | ⟨0, _⟩ => by show o = o + 0; omega
    | ⟨1, _⟩ => by show a.val = 0 + a.val; omega
    | ⟨2, _⟩ => by show h.val = 0 + h.val; omega
    | ⟨3, _⟩ => by show w.val = 0 + w.val; omega)

/-- The thresholded bit at frame `a`, row `h`, column `w`. -/
theorem thrK_apply (x0 : Vec F S3x8x256x256 .f32) (x1 : Vec F S3x256x256 .f32) (a : Fin 8) (h w : Fin 256) :
    thrK x0 x1 (ix3 a h w) = FloatOps.cmpf .ogt (FloatOps.addf (FloatOps.addf
        (FloatOps.absf (FloatOps.subf (x0 (ix4 0 a h w)) (x1 (ix3 0 h w))))
        (FloatOps.absf (FloatOps.subf (x0 (ix4 1 a h w)) (x1 (ix3 1 h w)))))
        (FloatOps.absf (FloatOps.subf (x0 (ix4 2 a h w)) (x1 (ix3 2 h w)))))
      (Scalar.ofBits .f32 0x3F000000#32) := by
  show FloatOps.cmpf .ogt (FloatOps.addf (FloatOps.addf
      (shapeCast S8x256x256 (extractStridedSlice S1x8x256x256 ![0, 0, 0, 0] (absDiff x0 x1) slices_S3x8x256x256_o0_0_0_0_S1x8x256x256) shapeCasts_S1x8x256x256_S8x256x256 (ix3 a h w))
      (shapeCast S8x256x256 (extractStridedSlice S1x8x256x256 ![1, 0, 0, 0] (absDiff x0 x1) slices_S3x8x256x256_o1_0_0_0_S1x8x256x256) shapeCasts_S1x8x256x256_S8x256x256 (ix3 a h w)))
      (shapeCast S8x256x256 (extractStridedSlice S1x8x256x256 ![2, 0, 0, 0] (absDiff x0 x1) slices_S3x8x256x256_o2_0_0_0_S1x8x256x256) shapeCasts_S1x8x256x256_S8x256x256 (ix3 a h w)))
    (Scalar.ofBits .f32 0x3F000000#32) = _
  rw [chan_apply 0 (by decide), chan_apply 1 (by decide), chan_apply 2 (by decide), absDiff_apply, absDiff_apply, absDiff_apply]
  rfl

/-- The stored value at channel `c`, frame `a`, row `h`, column `w`: x there times the dilated mask's word as a float. -/
theorem payload_apply (x0 : Vec F S3x8x256x256 .f32) (x1 : Vec F S3x256x256 .f32) (c : Fin 3) (a : Fin 8) (h w : Fin 256) :
    payload x0 x1 (ix4 c a h w)
      = FloatOps.mulf (x0 (ix4 c a h w)) (FloatOps.sitofp .f32 ((kstep^[5] (extui 32 (thrK x0 x1) natLt_1_32)) (ix3 a h w))) := by
  show FloatOps.mulf (x0 (ix4 c a h w)) (broadcastTo S3x8x256x256 (sitofp .f32 (shapeCast S1x8x256x256 (kstep^[5] (extui 32 (thrK x0 x1) natLt_1_32))
    shapeCasts_S8x256x256_S1x8x256x256)) broadcasts_S1x8x256x256_S3x8x256x256 (ix4 c a h w)) = _
  rw [broadcastTo_apply _ broadcasts_S1x8x256x256_S3x8x256x256 (ix4 c a h w) (ix4 ⟨0, Nat.one_pos⟩ a h w) (fun b => match b with
      | ⟨0, _⟩ => by show 0 = if (1 : Nat) = 1 then 0 else c.val; rw [if_pos rfl]
      | ⟨1, _⟩ => by show a.val = if (8 : Nat) = 1 then 0 else a.val; rw [if_neg (by decide)]
      | ⟨2, _⟩ => by show h.val = if (256 : Nat) = 1 then 0 else h.val; rw [if_neg (by decide)]
      | ⟨3, _⟩ => by show w.val = if (256 : Nat) = 1 then 0 else w.val; rw [if_neg (by decide)])]
  show FloatOps.mulf (x0 (ix4 c a h w)) (FloatOps.sitofp .f32 (shapeCast S1x8x256x256 (kstep^[5] (extui 32 (thrK x0 x1) natLt_1_32))
    shapeCasts_S8x256x256_S1x8x256x256 (ix4 ⟨0, Nat.one_pos⟩ a h w))) = _
  rw [shapeCast_apply _ shapeCasts_S8x256x256_S1x8x256x256 (ix4 ⟨0, Nat.one_pos⟩ a h w) (ix3 a h w) (by
      rw [Shape.rowMajor_val_three, Shape.rowMajor_val_four]
      show (a.val * 256 + h.val) * 256 + w.val = ((0 * 8 + a.val) * 256 + h.val) * 256 + w.val
      omega)]

/-- The dilated mask's word at an entry is the five times dilated bit of the entry's frame, widened. -/
theorem mask_apply (u : IVec S8x256x256 1) (a : Fin 8) (h w : Fin 256) :
    (kstep^[5] (extui 32 u natLt_1_32)) (ix3 a h w) = ((cross^[5] (frame u a)) h.val w.val).setWidth 32 := by
  rw [iterate_kstep, frame_extui, iterate_setWidth]

/-- At the ideal values a widened bit converts, signed, to what the bit converts to unsigned. -/
theorem sitofp_setWidth (b : BitVec 1) :
    (FloatOps.sitofp .f32 (b.setWidth 32) : Ideal .f32) = FloatOps.uitofp .f32 b := by
  show ((((b.setWidth 32).toInt : ℝ) : EReal)) = (((b.toNat : ℝ) : EReal))
  rw [toInt_setWidth_bit]
  norm_cast

/-- THE STORED VALUE AT AN ENTRY, at the ideal values: x there times the five times dilated thresholded bit as 0 or 1. -/
theorem payload_ideal (x0 : Vec Ideal S3x8x256x256 .f32) (x1 : Vec Ideal S3x256x256 .f32) (c : Fin 3) (a : Fin 8) (h w : Fin 256) :
    payload x0 x1 (ix4 c a h w)
      = FloatOps.mulf (x0 (ix4 c a h w)) (FloatOps.uitofp .f32 ((cross^[5] (frame (thrK x0 x1) a)) h.val w.val)) := by
  rw [payload_apply, mask_apply, sitofp_setWidth]

end Cert.KernelIdeal.Dil

end
-- ==== Proof.Spec.lean ====
/-
  The result both programs compute, as ONE function of the argument arrays X (3 channels × 128 frames × 256 × 256) and the
  background B (256 × 256 × 3 channels), index by index, at the ideal values:

    G X B (c, T, h, w) = X (c, T, h, w) · m₅ (T, h, w),

  where m₀ (T, h, w) is the bit |X(0,T,h,w) − B(h,w,0)| + |X(1,T,h,w) − B(h,w,1)| + |X(2,T,h,w) − B(h,w,2)| > 1/2 and
  m₅ is frame T of m₀ dilated five times by the 4-connected cross (Proof/Cross.lean), read as the float 0 or 1. Frames are
  dilated independently, so the function restricted to eight consecutive frames depends only on X at those frames.
-/
import proofs.«173328_j8873402434071_2_alg».proof.Proof.Frames
import Idealize.ShloMosaic.PureOps.Ideal

noncomputable section

namespace Cert.Spec

open Cert.Cross Idealize.ShloMosaic Idealize.ShloMosaic.ValueIdx

/-- The thresholded bit of frame `T` at row `h`, column `w`. -/
def thrBit (X : (⟨4, ![3, 128, 256, 256]⟩ : Shape).Idx → Elt Ideal .f32) (B : (⟨3, ![256, 256, 3]⟩ : Shape).Idx → Elt Ideal .f32)
    (T : Fin 128) (h w : Fin 256) : BitVec 1 :=
  FloatOps.cmpf (F := Ideal) .ogt (FloatOps.addf (F := Ideal) (FloatOps.addf
      (FloatOps.absf (F := Ideal) (FloatOps.subf (F := Ideal) (X (ix4 0 T h w)) (B (ix3 h w 0))))
      (FloatOps.absf (F := Ideal) (FloatOps.subf (F := Ideal) (X (ix4 1 T h w)) (B (ix3 h w 1)))))
      (FloatOps.absf (F := Ideal) (FloatOps.subf (F := Ideal) (X (ix4 2 T h w)) (B (ix3 h w 2)))))
    (Scalar.ofBits (F := Ideal) .f32 0x3F000000#32)

/-- The thresholded mask of all 128 frames. -/
def thrStack (X : (⟨4, ![3, 128, 256, 256]⟩ : Shape).Idx → Elt Ideal .f32) (B : (⟨3, ![256, 256, 3]⟩ : Shape).Idx → Elt Ideal .f32) :
    IVec (⟨3, ![128, 256, 256]⟩ : Shape) 1 := fun i => thrBit X B (i 0) (i 1) (i 2)

/-- The result, index by index. -/
def G (X : (⟨4, ![3, 128, 256, 256]⟩ : Shape).Idx → Elt Ideal .f32) (B : (⟨3, ![256, 256, 3]⟩ : Shape).Idx → Elt Ideal .f32) :
    (⟨4, ![3, 128, 256, 256]⟩ : Shape).Idx → Elt Ideal .f32 := fun i =>
  FloatOps.mulf (F := Ideal) (X i) (FloatOps.uitofp (F := Ideal) .f32 ((cross^[5] (frame (thrStack X B) (i 1))) (i 2).val (i 3).val))

theorem thrStack_apply (X : (⟨4, ![3, 128, 256, 256]⟩ : Shape).Idx → Elt Ideal .f32) (B : (⟨3, ![256, 256, 3]⟩ : Shape).Idx → Elt Ideal .f32)
    (T : Fin 128) (h w : Fin 256) : thrStack X B (ix3 T h w) = thrBit X B T h w := rfl

theorem G_apply (X : (⟨4, ![3, 128, 256, 256]⟩ : Shape).Idx → Elt Ideal .f32) (B : (⟨3, ![256, 256, 3]⟩ : Shape).Idx → Elt Ideal .f32)
    (c : Fin 3) (T : Fin 128) (h w : Fin 256) :
    G X B (ix4 c T h w)
      = FloatOps.mulf (F := Ideal) (X (ix4 c T h w)) (FloatOps.uitofp (F := Ideal) .f32 ((cross^[5] (frame (thrStack X B) T)) h.val w.val)) := rfl

end Cert.Spec

end
-- ==== Proof.KernelTile.lean ====
/-
  The stored value of a block is the block of `Spec.G`. If the block `x` of X holds frames 8t … 8t+7 of the whole array and
  `b` is the background with the channel axis first, then the kernel's thresholded mask of the tile is frames 8t … 8t+7 of
  the whole thresholded mask, the dilation acts on every frame by itself, and so the stored value at (c, a, h, w) is
  `G X B` at (c, 8t + a, h, w).
-/
import proofs.«173328_j8873402434071_2_alg».proof.Proof.KernelValue
import proofs.«173328_j8873402434071_2_alg».proof.Proof.Spec

noncomputable section

namespace Cert.KernelIdeal.Dil

open Cert.KernelIdeal Cert.Cross Cert.Spec Idealize.ShloMosaic Idealize.ShloMosaic.ValueIdx

variable [Facts]

/-- THE STORED VALUE OF BLOCK `t` is block `t` of `G`. -/
theorem payload_tile (X : (⟨4, ![3, 128, 256, 256]⟩ : Shape).Idx → Elt Ideal .f32) (B : (⟨3, ![256, 256, 3]⟩ : Shape).Idx → Elt Ideal .f32)
    (x0 : Vec Ideal S3x8x256x256 .f32) (x1 : Vec Ideal S3x256x256 .f32) (t : Nat) (ht : t < 16)
    (hx0 : ∀ (c : Fin 3) (a : Fin 8) (h w : Fin 256), x0 (ix4 c a h w) = X (ix4 c ⟨8 * t + a.val, by omega⟩ h w))
    (hx1 : ∀ (k : Fin 3) (h w : Fin 256), x1 (ix3 k h w) = B (ix3 h w k))
    (c : Fin 3) (a : Fin 8) (h w : Fin 256) :
    payload x0 x1 (ix4 c a h w) = G X B (ix4 c ⟨8 * t + a.val, by omega⟩ h w) := by
  have hf : frame (thrK x0 x1) a = frame (thrStack X B) ⟨8 * t + a.val, by omega⟩ :=
    frame_congr _ _ a _ (fun h w => by
      rw [thrK_apply, hx0, hx0, hx0, hx1, hx1, hx1, thrStack_apply]
      rfl)
  rw [payload_ideal, hx0, hf, G_apply]

end Cert.KernelIdeal.Dil

end
-- ==== Proof.Blocks.lean ====
/-
  From the blocks to the whole array. Grid point t (of 16) stages frames 8t … 8t+7 of X (all channels, rows and columns),
  the whole transposed background, and writes back frames 8t … 8t+7 of the result. What it writes back is its block of
  `Spec.G` of the argument arrays (Proof/KernelTile.lean), the sixteen blocks cover the result array (frame T lies in
  block T / 8), and so after the run the result array is `G` of the arguments.
-/
import proofs.«173328_j8873402434071_2_alg».proof.Proof.Gen.KernelIdeal.Value
import proofs.«173328_j8873402434071_2_alg».proof.Proof.KernelTile
import Idealize.ShloMosaic.Lib.Pipeline.Value
import Idealize.ShloMosaic.Lib.StableHlo.Run

noncomputable section

namespace Cert.KernelIdeal.Whole

open Cert.KernelIdeal Cert.KernelIdeal.Gen Cert.KernelIdeal.Value Cert.KernelIdeal.Dil Cert.Spec
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz4 : (![0, 0, 0, 0] : Fin 4 → Nat) = fun _ => 0 := funext fun a => by fin_cases a <;> rfl
theorem hz3 : (![0, 0, 0] : Fin 3 → Nat) = fun _ => 0 := funext fun a => by fin_cases a <;> rfl

/-- The printed index maps, decided over the sixteen grid points: the X window and the result window sit at frames-block
    `t`, everything else at block 0; the background window is the whole array. -/
theorem idx_facts : ∀ t : Fin cfg0.N,
    win0_0.index t (0 : Fin 4) = 0 ∧ win0_0.index t (1 : Fin 4) = t.val ∧ win0_0.index t (2 : Fin 4) = 0 ∧ win0_0.index t (3 : Fin 4) = 0
    ∧ win0_2.index t (0 : Fin 4) = 0 ∧ win0_2.index t (1 : Fin 4) = t.val ∧ win0_2.index t (2 : Fin 4) = 0 ∧ win0_2.index t (3 : Fin 4) = 0
    ∧ win0_1.index t (0 : Fin 3) = 0 ∧ win0_1.index t (1 : Fin 3) = 0 ∧ win0_1.index t (2 : Fin 3) = 0 ∧ t.val < 16 :=
  (by decide +kernel : ∀ t : Fin grid0.N, _)

/-- Every block of frames is some point's. -/
theorem idx_onto : ∀ q : Fin 16, ∃ t : Fin cfg0.N, t.val = q.val :=
  (by decide +kernel : ∀ q : Fin 16, ∃ t : Fin grid0.N, t.val = q.val)

/-- The background as the region finds it: the argument with the channel axis moved first. -/
theorem V_bg (c : Dev nD) :
    (V m c main_v0 : S3x256x256.Idx → Elt Ideal .f32)
      = transpose S3x256x256 [2, 0, 1] (m ((c : Thread nD τ).loc main_arg1)) transposes_S256x256x3_S3x256x256_2_0_1 := by
  dsimp only [Gen.V, Gen.hostOps0]
  after_results

/-- The block of X at point `t` holds frames 8t … 8t+7 of the argument. -/
theorem iblk0_apply (c : Dev nD) (t : Fin cfg0.N) (ht : t.val < 16) (k : Fin 3) (a : Fin 8) (h w : Fin 256) :
    iblk m c 0 t (ix4 k a h w) = m ((c : Thread nD τ).loc main_arg0) (ix4 k ⟨8 * t.val + a.val, by omega⟩ h w) := by
  obtain ⟨e0, e1, e2, e3, -⟩ := idx_facts t
  show V m c main_arg0 (((cfg0.win 0).blk t).view.emb (ix4 k a h w)) = _
  rw [V_main_arg0]
  refine congrArg (m ((c : Thread nD τ).loc main_arg0)) (funext fun b => Fin.ext ?_)
  match b with
  | ⟨0, _⟩ => show win0_0.index t (0 : Fin 4) * 3 + 1 * k.val = k.val; omega
  | ⟨1, _⟩ => show win0_0.index t (1 : Fin 4) * 8 + 1 * a.val = 8 * t.val + a.val; omega
  | ⟨2, _⟩ => show win0_0.index t (2 : Fin 4) * 256 + 1 * h.val = h.val; omega
  | ⟨3, _⟩ => show win0_0.index t (3 : Fin 4) * 256 + 1 * w.val = w.val; omega

/-- The block of the background at any point is the whole transposed background. -/
theorem iblk1_apply (c : Dev nD) (t : Fin cfg0.N) (k : Fin 3) (h w : Fin 256) :
    iblk m c 1 t (ix3 k h w) = m ((c : Thread nD τ).loc main_arg1) (ix3 h w k) := by
  obtain ⟨-, -, -, -, -, -, -, -, e0, e1, e2, -⟩ := idx_facts t
  show V m c main_v0 (((cfg0.win 1).blk t).view.emb (ix3 k h w)) = _
  have hemb : ((cfg0.win 1).blk t).view.emb (ix3 k h w) = ix3 k h w := by
    funext b; apply Fin.ext
    match b with
    | ⟨0, _⟩ => show win0_1.index t (0 : Fin 3) * 3 + 1 * k.val = k.val; omega
    | ⟨1, _⟩ => show win0_1.index t (1 : Fin 3) * 256 + 1 * h.val = h.val; omega
    | ⟨2, _⟩ => show win0_1.index t (2 : Fin 3) * 256 + 1 * w.val = w.val; omega
  rw [hemb, V_bg]
  exact transpose_apply [2, 0, 1] _ transposes_S256x256x3_S3x256x256_2_0_1 (ix3 k h w) (ix3 h w k) (fun b => match b with
    | ⟨0, _⟩ => rfl
    | ⟨1, _⟩ => rfl
    | ⟨2, _⟩ => rfl)

/-- WHAT POINT `t` WRITES BACK is block `t` of `G` of the argument arrays. -/
theorem flushed_eq (c : Dev nD) (t : Fin cfg0.N) :
    (dats m 0 c).flushed 2 t = ((cfg0.win 2).blk t).view.read (Elt Ideal)
      (G (m ((c : Thread nD τ).loc main_arg0)) (m ((c : Thread nD τ).loc main_arg1))) := by
  rw [flushed2]
  unfold out0_2
  rw [View.canon_unit_zero hz4]
  simp only [View.ld_unit_zero (S := S3x8x256x256) hz4, View.ld_unit_zero (S := S3x256x256) hz3]
  rw [pay_eq]
  obtain ⟨-, -, -, -, e0, e1, e2, e3, -, -, -, ht⟩ := idx_facts t
  funext j
  obtain ⟨k, a, h, w, rfl⟩ : ∃ (k : Fin 3) (a : Fin 8) (h w : Fin 256), j = ix4 k a h w := ⟨j 0, j 1, j 2, j 3, eq_ix4 j⟩
  show payload (iblk m c 0 t) (iblk m c 1 t) (ix4 k a h w)
    = G (m ((c : Thread nD τ).loc main_arg0)) (m ((c : Thread nD τ).loc main_arg1)) (((cfg0.win 2).blk t).view.emb (ix4 k a h w))
  have hemb : ((cfg0.win 2).blk t).view.emb (ix4 k a h w) = ix4 k ⟨8 * t.val + a.val, by omega⟩ h w := by
    funext b; apply Fin.ext
    match b with
    | ⟨0, _⟩ => show win0_2.index t (0 : Fin 4) * 3 + 1 * k.val = k.val; omega
    | ⟨1, _⟩ => show win0_2.index t (1 : Fin 4) * 8 + 1 * a.val = 8 * t.val + a.val; omega
    | ⟨2, _⟩ => show win0_2.index t (2 : Fin 4) * 256 + 1 * h.val = h.val; omega
    | ⟨3, _⟩ => show win0_2.index t (3 : Fin 4) * 256 + 1 * w.val = w.val; omega
  rw [hemb]
  exact payload_tile _ _ (iblk m c 0 t) (iblk m c 1 t) t.val ht (fun k a h w => iblk0_apply m c t ht k a h w)
    (fun k h w => iblk1_apply m c t k h w) k a h w

/-- An index of the array is in point `t`'s block iff each coordinate is in the block's range on its axis. -/
theorem mem_blk (t : Fin cfg0.N) (i : S3x128x256x256.Idx) :
    i ∈ ((cfg0.win 2).blk t).view.set ↔ ∀ a : Fin 4, win0_2.index t a * S3x8x256x256.size a ≤ (i a).val
      ∧ (i a).val < win0_2.index t a * S3x8x256x256.size a + S3x8x256x256.size a := by
  show i ∈ ((View.whole main_v1).slice (win0_2.rect t)).set ↔ _
  rw [View.set_slice_whole, Rect.mem_set_unit]
  exact Iff.rfl

/-- Every index of the result array lies in some point's block: frame `T` in block `T / 8`. -/
theorem cover (i : S3x128x256x256.Idx) :
    ∃ t : Fin cfg0.N, (cfg0.win 2).flush t = true ∧ i ∈ ((cfg0.win 2).blk t).view.set := by
  have hi0 : (i 0).val < 3 := (i 0).isLt
  have hi1 : (i 1).val < 128 := (i 1).isLt
  have hi2 : (i 2).val < 256 := (i 2).isLt
  have hi3 : (i 3).val < 256 := (i 3).isLt
  obtain ⟨t, ht⟩ := idx_onto ⟨(i 1).val / 8, by omega⟩
  have ht' : t.val = (i 1).val / 8 := ht
  obtain ⟨-, -, -, -, e0, e1, e2, e3, -⟩ := idx_facts t
  refine ⟨t, flush0_2 t, ?_⟩
  rw [mem_blk]
  intro a
  match a with
  | ⟨0, _⟩ => show win0_2.index t (0 : Fin 4) * 3 ≤ (i 0).val ∧ (i 0).val < win0_2.index t (0 : Fin 4) * 3 + 3; omega
  | ⟨1, _⟩ => show win0_2.index t (1 : Fin 4) * 8 ≤ (i 1).val ∧ (i 1).val < win0_2.index t (1 : Fin 4) * 8 + 8; omega
  | ⟨2, _⟩ => show win0_2.index t (2 : Fin 4) * 256 ≤ (i 2).val ∧ (i 2).val < win0_2.index t (2 : Fin 4) * 256 + 256; omega
  | ⟨3, _⟩ => show win0_2.index t (3 : Fin 4) * 256 ≤ (i 3).val ∧ (i 3).val < win0_2.index t (3 : Fin 4) * 256 + 256; omega

/-- THE RESULT ARRAY after the run is `G` of the argument arrays. -/
theorem final (c : Dev nD) :
    (dats m 0 c).arrAt 2 cfg0.N = G (m ((c : Thread nD τ).loc main_arg0)) (m ((c : Thread nD τ).loc main_arg1)) :=
  (dats m 0 c).arrAt_eq_of_cover 2 _ (fun t _ => flushed_eq m c t) cover

/-- The kernel's run: every weakly fair execution terminates with the result array at `G` of the arguments and the
    arguments unchanged. -/
theorem run : θ_run defs (onTc (τ := τ) (main (F := Ideal))) ⟨m, fun _ => 0, ρ⟩ fun r => ∀ c : Dev nD,
      r.2.mem ((c : Thread nD τ).loc main_v1) = G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.Whole

end
-- ==== Proof.RefStep.lean ====
/-
  One dilation step as the reference computes it, on the whole stack of 128 frames held as single bits: `stablehlo.pad`
  puts one row and one column of the padding bit (the bit `0 ≠ 0`, that is 0) on each side of every frame, and five
  128 × 256 × 256 slices of the padded stack are ORed, in the same order as in the kernel: offsets (1,1), (0,1), (2,1),
  (1,0), (1,2). Read at an entry this is `Cross.cross` of the entry's frame.
-/
import proofs.«173328_j8873402434071_2_alg».proof.ReferenceIdeal
import proofs.«173328_j8873402434071_2_alg».proof.Proof.Frames
import Idealize.ShloMosaic.Lib.Pipeline.Value
import Idealize.ShloMosaic.Lib.KernelVsHost

noncomputable section

namespace Cert.ReferenceIdeal.Dil

open Cert.ReferenceIdeal Cert.Cross Idealize.ShloMosaic Idealize.ShloMosaic.ValueIdx
open Cert.ReferenceIdeal.Facts₀ Cert.ReferenceIdeal.Facts

variable [Facts]

/-- The padding bit as the program computes it: `0 ≠ 0` on 32-bit integers. -/
def padBit : IVec S_ 1 := id (cmpi .ne (constantI S_ 32 0#32) (broadcastInDim S_ ![] bcast_S_S_ (constantI S_ 32 0#32)))

/-- It is zero. -/
theorem padBit_apply (i : S_.Idx) : padBit i = 0#1 := by
  show IntOp.cmpi .ne (0#32) (broadcastInDim S_ ![] bcast_S_S_ (constantI S_ 32 0#32) i) = 0#1
  rw [broadcastInDim_apply _ bcast_S_S_ (constantI S_ 32 0#32) i i (fun a => a.elim0)]
  rfl

/-- The stack with a ring of the padding bit around every frame. -/
def padRing (u : IVec S128x256x256 1) : IVec S128x258x258 1 :=
  pad S128x258x258 ![0, 1, 1] ![0, 1, 1] ![0, 0, 0] u padBit pads_S128x256x256_S128x258x258_000_110_110 h_S_

/-- The five slices of a padded stack, ORed in the reference's order. -/
def orWindows (p : IVec S128x258x258 1) : IVec S128x256x256 1 :=
  ori (ori (ori (ori (extractStridedSlice S128x256x256 ![0, 1, 1] p slices_S128x258x258_S128x256x256_0_1_1)
    (extractStridedSlice S128x256x256 ![0, 0, 1] p slices_S128x258x258_S128x256x256_0_0_1))
    (extractStridedSlice S128x256x256 ![0, 2, 1] p slices_S128x258x258_S128x256x256_0_2_1))
    (extractStridedSlice S128x256x256 ![0, 1, 0] p slices_S128x258x258_S128x256x256_0_1_0))
    (extractStridedSlice S128x256x256 ![0, 1, 2] p slices_S128x258x258_S128x256x256_0_1_2)

/-- One dilation step on the stack. -/
def rstep (u : IVec S128x256x256 1) : IVec S128x256x256 1 := orWindows (padRing u)

/-- The padded stack at `(T, H, W)` is the ringed frame of member `T` at `(H, W)`. -/
theorem padRing_apply (u : IVec S128x256x256 1) (T : Fin 128) (H W : Fin 258) :
    padRing u (ix3 T H W) = ring (frame u T) H.val W.val := by
  unfold padRing ring
  by_cases hc : 1 ≤ H.val ∧ H.val ≤ 256 ∧ 1 ≤ W.val ∧ W.val ≤ 256
  · rw [if_pos hc, frame_apply u T (H.val - 1) (W.val - 1) (by omega) (by omega)]
    exact pad_apply_of_inside _ _ _ u padBit pads_S128x256x256_S128x258x258_000_110_110 h_S_ (ix3 T H W)
      (ix3 T ⟨H.val - 1, by omega⟩ ⟨W.val - 1, by omega⟩) (fun a => match a with
        | ⟨0, _⟩ => by show T.val = 0 + T.val * (0 + 1); omega
        | ⟨1, _⟩ => by show H.val = 1 + (H.val - 1) * (0 + 1); omega
        | ⟨2, _⟩ => by show W.val = 1 + (W.val - 1) * (0 + 1); omega)
  · rw [if_neg hc]
    by_cases hH : 1 ≤ H.val ∧ H.val ≤ 256
    · refine (pad_apply_of_not_inside _ _ _ u padBit pads_S128x256x256_S128x258x258_000_110_110 h_S_ (ix3 T H W) ⟨2, by decide⟩ ?_).trans
        (padBit_apply _)
      show ¬(1 ≤ W.val ∧ (W.val - 1) % (0 + 1) = 0 ∧ (W.val - 1) / (0 + 1) < 256)
      omega
    · refine (pad_apply_of_not_inside _ _ _ u padBit pads_S128x256x256_S128x258x258_000_110_110 h_S_ (ix3 T H W) ⟨1, by decide⟩ ?_).trans
        (padBit_apply _)
      show ¬(1 ≤ H.val ∧ (H.val - 1) % (0 + 1) = 0 ∧ (H.val - 1) / (0 + 1) < 256)
      omega

/-- A slice of the padded stack at offsets `(o₁, o₂)`, read at an entry. -/
theorem window_apply {α : Type} (o₁ o₂ : Nat) (p : S128x258x258.Idx → α) (hs : S128x258x258.Slices ![0, o₁, o₂] S128x256x256)
    (T : Fin 128) (h w : Fin 256) (h₁ : h.val + o₁ < 258) (h₂ : w.val + o₂ < 258) :
    extractStridedSlice S128x256x256 ![0, o₁, o₂] p hs (ix3 T h w) = p (ix3 T ⟨h.val + o₁, h₁⟩ ⟨w.val + o₂, h₂⟩) :=
  extractStridedSlice_apply _ p hs (ix3 T h w) (ix3 T ⟨h.val + o₁, h₁⟩ ⟨w.val + o₂, h₂⟩) (fun b => match b with
    | ⟨0, _⟩ => by show T.val = 0 + T.val; omega
    | ⟨1, _⟩ => by show h.val + o₁ = o₁ + h.val; omega
    | ⟨2, _⟩ => by show w.val + o₂ = o₂ + w.val; omega)

/-- ONE STEP, READ AT AN ENTRY: the dilation of the entry's frame. -/
theorem rstep_apply (u : IVec S128x256x256 1) (T : Fin 128) (h w : Fin 256) :
    rstep u (ix3 T h w) = cross (frame u T) h.val w.val := by
  have hh := h.isLt
  have hw := w.isLt
  show (((extractStridedSlice S128x256x256 ![0, 1, 1] (padRing u) slices_S128x258x258_S128x256x256_0_1_1 (ix3 T h w)
    ||| extractStridedSlice S128x256x256 ![0, 0, 1] (padRing u) slices_S128x258x258_S128x256x256_0_0_1 (ix3 T h w))
    ||| extractStridedSlice S128x256x256 ![0, 2, 1] (padRing u) slices_S128x258x258_S128x256x256_0_2_1 (ix3 T h w))
    ||| extractStridedSlice S128x256x256 ![0, 1, 0] (padRing u) slices_S128x258x258_S128x256x256_0_1_0 (ix3 T h w))
    ||| extractStridedSlice S128x256x256 ![0, 1, 2] (padRing u) slices_S128x258x258_S128x256x256_0_1_2 (ix3 T h w) = _
  rw [window_apply 1 1 _ _ T h w (by omega) (by omega), window_apply 0 1 _ _ T h w (by omega) (by omega),
    window_apply 2 1 _ _ T h w (by omega) (by omega), window_apply 1 0 _ _ T h w (by omega) (by omega),
    window_apply 1 2 _ _ T h w (by omega) (by omega)]
  simp only [padRing_apply]
  rfl

/-- The frame of the stepped stack, inside the frame, is the dilation of the stack's frame. -/
theorem frame_rstep (u : IVec S128x256x256 1) (T : Fin 128) (h w : Nat) (hh : h < 256) (hw : w < 256) :
    frame (rstep u) T h w = cross (frame u T) h w := by
  rw [frame_apply (rstep u) T h w hh hw]
  exact rstep_apply u T ⟨h, hh⟩ ⟨w, hw⟩

/-- ANY NUMBER OF STEPS, READ AT AN ENTRY: that many dilations of the entry's frame. -/
theorem iterate_rstep (k : Nat) (u : IVec S128x256x256 1) (T : Fin 128) (h w : Fin 256) :
    (rstep^[k] u) (ix3 T h w) = (cross^[k] (frame u T)) h.val w.val := by
  induction k generalizing u with
  | zero => exact (frame_apply u T h.val w.val h.isLt w.isLt).symm
  | succ k ih =>
    rw [Function.iterate_succ_apply, ih (rstep u), Function.iterate_succ_apply]
    exact iterate_congr (fun h' w' hh hw => frame_rstep u T h' w' hh hw) k h.val w.val h.isLt w.isLt

end Cert.ReferenceIdeal.Dil

end
-- ==== Proof.RefRun.lean ====
/-
  The reference's run, with its intermediate values shared. The program is ten operations that compute the thresholded
  mask (the sum over the three channels of |X − background| compared with 1/2), five dilation steps of fifteen operations
  each (the padding bit, the pad, five slices, four ORs), and five closing operations (the mask as a float, broadcast
  over the channels, times X, transposed back). Each dilation step reads the padded mask five times, so the result as one
  composed term of the arguments has 5⁵ copies of the thresholded mask; here the buffers' contents after each stretch are
  named, each stretch is run from arbitrary contents, and the result is the last stage of the generated read-back,
  `ReadP.val_main_v62`, in which every value is defined from the named values before it.
-/
import proofs.«173328_j8873402434071_2_alg».proof.Proof.RefOps
import proofs.«173328_j8873402434071_2_alg».proof.Proof.RefRead
import proofs.«173328_j8873402434071_2_alg».proof.Proof.RefStep
import Idealize.ShloMosaic.Lib.StableHlo.Run

noncomputable section

namespace Cert.ReferenceIdeal.RunP

open Cert.ReferenceIdeal Cert.ReferenceIdeal.Gen Cert.ReferenceIdeal.ValueP Cert.ReferenceIdeal.ReadP Cert.ReferenceIdeal.Dil
open Idealize.ShloMosaic Idealize.ShloMosaic.TcCoe Idealize.SL.Sem Idealize.ShloMosaic.StableHlo

variable {F : FTy → Type} [FloatOps F]

/-! ## The stages of the read-back, step by step -/

theorem val17_eq (x0 : (⟨S3x128x256x256, .f32⟩ : BufTy).Contents (Elt F)) (x1 : (⟨S256x256x3, .f32⟩ : BufTy).Contents (Elt F)) :
    val_main_v17 (F := F) x0 x1 = rstep (val_main_v7 (F := F) x0 x1) := rfl
theorem val27_eq (x0 : (⟨S3x128x256x256, .f32⟩ : BufTy).Contents (Elt F)) (x1 : (⟨S256x256x3, .f32⟩ : BufTy).Contents (Elt F)) :
    val_main_v27 (F := F) x0 x1 = rstep (val_main_v17 (F := F) x0 x1) := rfl
theorem val37_eq (x0 : (⟨S3x128x256x256, .f32⟩ : BufTy).Contents (Elt F)) (x1 : (⟨S256x256x3, .f32⟩ : BufTy).Contents (Elt F)) :
    val_main_v37 (F := F) x0 x1 = rstep (val_main_v27 (F := F) x0 x1) := rfl
theorem val47_eq (x0 : (⟨S3x128x256x256, .f32⟩ : BufTy).Contents (Elt F)) (x1 : (⟨S256x256x3, .f32⟩ : BufTy).Contents (Elt F)) :
    val_main_v47 (F := F) x0 x1 = rstep (val_main_v37 (F := F) x0 x1) := rfl
theorem val57_eq (x0 : (⟨S3x128x256x256, .f32⟩ : BufTy).Contents (Elt F)) (x1 : (⟨S256x256x3, .f32⟩ : BufTy).Contents (Elt F)) :
    val_main_v57 (F := F) x0 x1 = rstep (val_main_v47 (F := F) x0 x1) := rfl

/-- The five steps together. -/
theorem val57_iterate (x0 : (⟨S3x128x256x256, .f32⟩ : BufTy).Contents (Elt F)) (x1 : (⟨S256x256x3, .f32⟩ : BufTy).Contents (Elt F)) :
    val_main_v57 (F := F) x0 x1 = rstep^[5] (val_main_v7 (F := F) x0 x1) := by
  rw [val57_eq, val47_eq, val37_eq, val27_eq, val17_eq]
  rfl

/-- The closing operations, from the transposed X and the dilated mask. -/
def closing (y0 : (⟨S128x256x256x3, .f32⟩ : BufTy).Contents (Elt F)) (u : IVec S128x256x256 1) : (⟨S3x128x256x256, .f32⟩ : BufTy).Contents (Elt F) :=
  transpose S3x128x256x256 [3, 0, 1, 2] (mulf y0 (broadcastInDim S128x256x256x3 ![0, 1, 2, 3] bcast_S128x256x256x1_S128x256x256x3_0_1_2_3
    (uitofp .f32 (broadcastInDim S128x256x256x1 ![0, 1, 2] bcast_S128x256x256_S128x256x256x1_0_1_2 u)))) transposes_S128x256x256x3_S3x128x256x256_3_0_1_2

theorem val62_eq (x0 : (⟨S3x128x256x256, .f32⟩ : BufTy).Contents (Elt F)) (x1 : (⟨S256x256x3, .f32⟩ : BufTy).Contents (Elt F)) :
    val_main_v62 (F := F) x0 x1 = closing (val_main_v0 (F := F) x0) (val_main_v57 (F := F) x0 x1) := rfl

/-! ## The buffers after each stretch of operations -/

theorem after_append (l₁ l₂ : List (HloOp τ sig (Elt F))) (V : Valuation τ sig (Elt F)) :
    after (l₁ ++ l₂) V = after l₂ (after l₁ V) := by
  induction l₁ generalizing V with
  | nil => rfl
  | cons op l ih => exact ih _

/-- A line run as its first `n` operations and then the rest. -/
theorem after_split (n : Nat) (l : List (HloOp τ sig (Elt F))) (V : Valuation τ sig (Elt F)) :
    after l V = after (l.drop n) (after (l.take n) V) := by
  rw [← after_append, List.take_append_drop]

/-- The first ten operations leave the transposed X in `main_v0` and the thresholded mask in `main_v7`. -/
theorem stage0 (W : Valuation τ sig (Elt F)) :
    after ((ops (F := F)).take 10) W (Proc.devRef .tc main_v7)
        = val_main_v7 (F := F) (W (Proc.devRef .tc main_arg0)) (W (Proc.devRef .tc main_arg1))
    ∧ after ((ops (F := F)).take 10) W (Proc.devRef .tc main_v0) = val_main_v0 (F := F) (W (Proc.devRef .tc main_arg0)) := by
  constructor
  · simp only [ops, List.take_succ_cons, List.take_zero]
    after_results_simp
    rfl
  · simp only [ops, List.take_succ_cons, List.take_zero]
    after_results_simp
    rfl

/-- Dilation step 1: fifteen operations from any contents leave the stepped mask in `main_v17` and keep `main_v0`. -/
theorem stage1 (W : Valuation τ sig (Elt F)) :
    after (((ops (F := F)).drop 10).take 15) W (Proc.devRef .tc main_v17) = rstep (W (Proc.devRef .tc main_v7))
    ∧ after (((ops (F := F)).drop 10).take 15) W (Proc.devRef .tc main_v0) = W (Proc.devRef .tc main_v0) := by
  constructor
  · simp only [ops, List.drop_succ_cons, List.drop_zero, List.take_succ_cons, List.take_zero]
    after_results_simp
    rfl
  · simp only [ops, List.drop_succ_cons, List.drop_zero, List.take_succ_cons, List.take_zero]
    after_results_simp

/-- Dilation step 2: fifteen operations from any contents leave the stepped mask in `main_v27` and keep `main_v0`. -/
theorem stage2 (W : Valuation τ sig (Elt F)) :
    after ((((ops (F := F)).drop 10).drop 15).take 15) W (Proc.devRef .tc main_v27) = rstep (W (Proc.devRef .tc main_v17))
    ∧ after ((((ops (F := F)).drop 10).drop 15).take 15) W (Proc.devRef .tc main_v0) = W (Proc.devRef .tc main_v0) := by
  constructor
  · simp only [ops, List.drop_succ_cons, List.drop_zero, List.take_succ_cons, List.take_zero]
    after_results_simp
    rfl
  · simp only [ops, List.drop_succ_cons, List.drop_zero, List.take_succ_cons, List.take_zero]
    after_results_simp

/-- Dilation step 3: fifteen operations from any contents leave the stepped mask in `main_v37` and keep `main_v0`. -/
theorem stage3 (W : Valuation τ sig (Elt F)) :
    after (((((ops (F := F)).drop 10).drop 15).drop 15).take 15) W (Proc.devRef .tc main_v37) = rstep (W (Proc.devRef .tc main_v27))
    ∧ after (((((ops (F := F)).drop 10).drop 15).drop 15).take 15) W (Proc.devRef .tc main_v0) = W (Proc.devRef .tc main_v0) := by
  constructor
  · simp only [ops, List.drop_succ_cons, List.drop_zero, List.take_succ_cons, List.take_zero]
    after_results_simp
    rfl
  · simp only [ops, List.drop_succ_cons, List.drop_zero, List.take_succ_cons, List.take_zero]
    after_results_simp

/-- Dilation step 4: fifteen operations from any contents leave the stepped mask in `main_v47` and keep `main_v0`. -/
theorem stage4 (W : Valuation τ sig (Elt F)) :
    after ((((((ops (F := F)).drop 10).drop 15).drop 15).drop 15).take 15) W (Proc.devRef .tc main_v47) = rstep (W (Proc.devRef .tc main_v37))
    ∧ after ((((((ops (F := F)).drop 10).drop 15).drop 15).drop 15).take 15) W (Proc.devRef .tc main_v0) = W (Proc.devRef .tc main_v0) := by
  constructor
  · simp only [ops, List.drop_succ_cons, List.drop_zero, List.take_succ_cons, List.take_zero]
    after_results_simp
    rfl
  · simp only [ops, List.drop_succ_cons, List.drop_zero, List.take_succ_cons, List.take_zero]
    after_results_simp

/-- Dilation step 5: fifteen operations from any contents leave the stepped mask in `main_v57` and keep `main_v0`. -/
theorem stage5 (W : Valuation τ sig (Elt F)) :
    after (((((((ops (F := F)).drop 10).drop 15).drop 15).drop 15).drop 15).take 15) W (Proc.devRef .tc main_v57) = rstep (W (Proc.devRef .tc main_v47))
    ∧ after (((((((ops (F := F)).drop 10).drop 15).drop 15).drop 15).drop 15).take 15) W (Proc.devRef .tc main_v0) = W (Proc.devRef .tc main_v0) := by
  constructor
  · simp only [ops, List.drop_succ_cons, List.drop_zero, List.take_succ_cons, List.take_zero]
    after_results_simp
    rfl
  · simp only [ops, List.drop_succ_cons, List.drop_zero, List.take_succ_cons, List.take_zero]
    after_results_simp

/-- The five closing operations, from any contents. -/
theorem stage6 (W : Valuation τ sig (Elt F)) :
    after (((((((ops (F := F)).drop 10).drop 15).drop 15).drop 15).drop 15).drop 15) W (Proc.devRef .tc main_v62) = closing (W (Proc.devRef .tc main_v0)) (W (Proc.devRef .tc main_v57)) := by
  simp only [ops, List.drop_succ_cons, List.drop_zero]
  after_results_simp
  rfl

/-- THE RESULT BUFFER AFTER THE WHOLE LINE is the last stage of the read-back at the arguments' contents. -/
theorem result (V : Valuation τ sig (Elt F)) :
    after (ops (F := F)) V (Proc.devRef .tc main_v62)
      = val_main_v62 (F := F) (V (Proc.devRef .tc main_arg0)) (V (Proc.devRef .tc main_arg1)) := by
  rw [after_split 10 ops V]
  obtain ⟨a7, a0⟩ := stage0 V
  generalize after ((ops (F := F)).take 10) V = V0 at a7 a0 ⊢
  rw [after_split 15 _ V0]
  obtain ⟨b7, b0⟩ := stage1 V0
  generalize after (((ops (F := F)).drop 10).take 15) V0 = V1 at b7 b0 ⊢
  rw [after_split 15 _ V1]
  obtain ⟨c7, c0⟩ := stage2 V1
  generalize after ((((ops (F := F)).drop 10).drop 15).take 15) V1 = V2 at c7 c0 ⊢
  rw [after_split 15 _ V2]
  obtain ⟨d7, d0⟩ := stage3 V2
  generalize after (((((ops (F := F)).drop 10).drop 15).drop 15).take 15) V2 = V3 at d7 d0 ⊢
  rw [after_split 15 _ V3]
  obtain ⟨e7, e0⟩ := stage4 V3
  generalize after ((((((ops (F := F)).drop 10).drop 15).drop 15).drop 15).take 15) V3 = V4 at e7 e0 ⊢
  rw [after_split 15 _ V4]
  obtain ⟨f7, f0⟩ := stage5 V4
  generalize after (((((((ops (F := F)).drop 10).drop 15).drop 15).drop 15).drop 15).take 15) V4 = V5 at f7 f0 ⊢
  rw [stage6 V5, f7, e7, d7, c7, b7, a7, f0, e0, d0, c0, b0, a0,
    val62_eq, val57_eq, val47_eq, val37_eq, val27_eq, val17_eq]

/-- On every device, from any memory with zero counters: every weakly fair execution of @main terminates with the result
    at the last stage of the read-back of the arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v62)
        = val_main_v62 (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v62).trans (result (launchContents m c)),
      (h c main_arg0).trans (by after_results_simp <;> rfl),
      (h c main_arg1).trans (by after_results_simp <;> rfl)⟩)
    (run_seq scopedRefs_eq scopedSems_eq defs main (fun _ => ops) main_eq (fun _ => ops_sub) m ρ)

end Cert.ReferenceIdeal.RunP

end
-- ==== Proof.RefValue.lean ====
/-
  The reference's result is the function `Spec.G` of the argument arrays, index by index, at the ideal values. The
  reference transposes X to frames × rows × columns × channels, sums |X − background| over the channel axis (from a zero
  initial value, which adds nothing: 0 + (d₀ + d₁ + d₂) is the kernel's (d₀ + d₁) + d₂), thresholds, dilates five times
  (Proof/RefStep.lean), converts the bit, multiplies and transposes back.
-/
import proofs.«173328_j8873402434071_2_alg».proof.Proof.RefRun
import proofs.«173328_j8873402434071_2_alg».proof.Proof.Spec
import Idealize.ShloMosaic.PureOps.Ideal.Laws

noncomputable section

namespace Cert.ReferenceIdeal.RefValue

open Cert.ReferenceIdeal Cert.ReferenceIdeal.Gen Cert.ReferenceIdeal.ReadP Cert.ReferenceIdeal.Dil Cert.ReferenceIdeal.RunP
open Cert.Cross Cert.Spec Idealize.ShloMosaic Idealize.ShloMosaic.ValueIdx

/-- |X − background| at frame `T`, row `h`, column `w`, channel `k`, in the reference's transposed layout. -/
theorem absDiff_at (X : (⟨S3x128x256x256, .f32⟩ : BufTy).Contents (Elt Ideal)) (B : (⟨S256x256x3, .f32⟩ : BufTy).Contents (Elt Ideal))
    (T : Fin 128) (h w : Fin 256) (k : Fin 3) :
    val_main_v4 (F := Ideal) X B (idx_main_v5 (ix3 T h w) k)
      = FloatOps.absf (F := Ideal) (φ := .f32) (FloatOps.subf (F := Ideal) (φ := .f32) (X (ix4 k T h w)) (B (ix3 h w k))) := by
  rw [val_main_v4_apply, val_main_v3_apply, val_main_v0_apply, val_main_v2_apply, val_main_v1_apply]
  have e0 : idx_main_v0 (idx_main_v5 (ix3 T h w) k) = ix4 k T h w :=
    funext fun a => Fin.ext (by match a with | ⟨0, _⟩ => rfl | ⟨1, _⟩ => rfl | ⟨2, _⟩ => rfl | ⟨3, _⟩ => rfl)
  have e1 : idx_main_v1 (idx_main_v2 (idx_main_v5 (ix3 T h w) k)) = ix3 h w k :=
    funext fun a => Fin.ext (by match a with | ⟨0, _⟩ => rfl | ⟨1, _⟩ => rfl | ⟨2, _⟩ => rfl)
  rw [e0, e1]
  rfl

/-- The reference's thresholded mask is the specification's. -/
theorem thr_at (X : (⟨S3x128x256x256, .f32⟩ : BufTy).Contents (Elt Ideal)) (B : (⟨S256x256x3, .f32⟩ : BufTy).Contents (Elt Ideal))
    (T : Fin 128) (h w : Fin 256) :
    val_main_v7 (F := Ideal) X B (ix3 T h w) = thrBit X B T h w := by
  rw [val_main_v7_apply, val_main_v5_apply, Fin.sum_univ_three, absDiff_at, absDiff_at, absDiff_at, val_main_v6_apply,
    val_main_cst_0_apply, val_main_cst_apply]
  show FloatOps.cmpf .ogt (Ideal.ofBits .f32 0x00000000#32 + (_ + _ + _)) _ = _
  rw [Ideal.ofBits_zero_f32, zero_add]
  rfl

/-- THE REFERENCE'S RESULT IS `G`. -/
theorem result_eq (X : (⟨S3x128x256x256, .f32⟩ : BufTy).Contents (Elt Ideal)) (B : (⟨S256x256x3, .f32⟩ : BufTy).Contents (Elt Ideal)) :
    val_main_v62 (F := Ideal) X B = G X B := by
  funext i
  obtain ⟨c, T, h, w, rfl⟩ : ∃ (c : Fin 3) (T : Fin 128) (h w : Fin 256), i = ix4 c T h w := ⟨i 0, i 1, i 2, i 3, eq_ix4 i⟩
  rw [val_main_v62_apply, val_main_v61_apply, val_main_v0_apply, val_main_v60_apply, val_main_v59_apply, val_main_v58_apply,
    val57_iterate, G_apply]
  have e0 : idx_main_v0 (idx_main_v62 (ix4 c T h w)) = ix4 c T h w :=
    funext fun a => Fin.ext (by match a with | ⟨0, _⟩ => rfl | ⟨1, _⟩ => rfl | ⟨2, _⟩ => rfl | ⟨3, _⟩ => rfl)
  have e1 : idx_main_v58 (idx_main_v60 (idx_main_v62 (ix4 c T h w))) = ix3 T h w :=
    funext fun a => Fin.ext (by match a with | ⟨0, _⟩ => rfl | ⟨1, _⟩ => rfl | ⟨2, _⟩ => rfl)
  rw [e0, e1, iterate_rstep]
  have hf : frame (val_main_v7 (F := Ideal) X B) T = frame (thrStack X B) T :=
    frame_congr _ _ T T (fun h w => (thr_at X B T h w).trans (thrStack_apply X B T h w).symm)
  rw [hf]

end Cert.ReferenceIdeal.RefValue

end
-- ==== Proof.lean ====
/-
  Background removal on a stack of frames: the kernel against its jnp reference, equal as extended reals.

  Both programs compute, for X of 3 channels × 128 frames × 256 × 256 and a background B of 256 × 256 × 3 channels,

    out (c, T, h, w) = X (c, T, h, w) · m₅ (T, h, w),

  where m₀ (T, h, w) is the bit  |X(0,T,h,w) − B(h,w,0)| + |X(1,T,h,w) − B(h,w,1)| + |X(2,T,h,w) − B(h,w,2)| > 1/2  and m₅ is
  m₀ after five binary dilations of every frame by the 4-connected cross with zeros outside the frame (Proof/Spec.lean,
  Proof/Cross.lean). The kernel works on tiles of eight frames, sums the three channels as (d₀ + d₁) + d₂, carries the mask as
  32-bit words holding 0 or 1, pads by concatenating rows and columns of zeros, ORs the words and converts them signed; the
  reference works on the whole stack in a channels-last layout, sums the channels from a zero initial value, carries the mask
  as single bits, pads with `stablehlo.pad` by the bit `0 ≠ 0`, ORs the bits and converts them unsigned. The two are one
  function because: 0 + (d₀ + d₁ + d₂) = (d₀ + d₁) + d₂ on the extended reals (0 is neutral; nothing else of arithmetic is
  used, so the precondition's finiteness is never opened); widening a bit by zero bits commutes with OR and with padding by
  zero, and a widened bit read signed is the bit read unsigned; a dilation step reads a frame only through that frame, so a
  tile of eight frames of the whole dilated mask is the dilated tile; and the sixteen blocks of eight frames cover the array.

  The modules: Cross (the dilation of one frame, on words of any width), Frames (the frames of a stack), KernelStep and
  RefStep (each program's step read at an entry), KernelValue and KernelTile (what the kernel's body stores is the block
  of the specification), Blocks (the blocks make up the array), RefOps / RefRead / RefRun (the reference's run, its
  intermediate values shared), RefValue (the reference's result is the specification).
-/
import proofs.«173328_j8873402434071_2_alg».proof.Defs
import proofs.«173328_j8873402434071_2_alg».proof.Proof.Gen.Kernel
import proofs.«173328_j8873402434071_2_alg».proof.Proof.Gen.Kernel.Skeleton
import proofs.«173328_j8873402434071_2_alg».proof.Proof.Gen.Kernel.Launch
import proofs.«173328_j8873402434071_2_alg».proof.Proof.Gen.Kernel.Points
import proofs.«173328_j8873402434071_2_alg».proof.Proof.Gen.Kernel.Frame
import proofs.«173328_j8873402434071_2_alg».proof.Proof.Gen.KernelIdeal
import proofs.«173328_j8873402434071_2_alg».proof.Proof.Gen.KernelIdeal.Skeleton
import proofs.«173328_j8873402434071_2_alg».proof.Proof.Gen.KernelIdeal.Launch
import proofs.«173328_j8873402434071_2_alg».proof.Proof.Gen.KernelIdeal.Points
import proofs.«173328_j8873402434071_2_alg».proof.Proof.Gen.KernelIdeal.Frame
import proofs.«173328_j8873402434071_2_alg».proof.Proof.Gen.ReferenceIdeal
import proofs.«173328_j8873402434071_2_alg».proof.Proof.Gen.Pre_finite_inputs
import proofs.«173328_j8873402434071_2_alg».proof.Proof.Gen.KernelIdeal.Value
import proofs.«173328_j8873402434071_2_alg».proof.Proof.Blocks
import proofs.«173328_j8873402434071_2_alg».proof.Proof.RefValue
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- So does the kernel at the ideal values. -/
theorem frame_kernelIdeal : Cert.frame_KernelIdeal := fun m ρ _ => Cert.KernelIdeal.Gen.frame m ρ

/-- So does the reference: its run with the result dropped. -/
theorem frame_referenceIdeal : Cert.frame_ReferenceIdeal := fun m ρ _ =>
  (θ_run Cert.ReferenceIdeal.defs _ _).mono (fun _ h c => (h c).2) (Cert.ReferenceIdeal.RunP.run (F := Ideal) m ρ)

/-- At the ideal values both programs end with the result array at `Spec.G` of the argument arrays: the kernel block by
    block (Proof/Blocks.lean), the reference by its read-back (Proof/RefValue.lean), from memories that agree on the arguments. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.RunP.run (F := Ideal) m' ρ')
  rw [(hagree c).1, (hagree c).2]
  exact Cert.ReferenceIdeal.RefValue.result_eq _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
